-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S100000x128 : Shape := ⟨2, ![100000, 128]⟩
abbrev S16384 : Shape := ⟨1, ![16384]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S100000x128 .f32) (main_arg1 : IVec S16384 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_c_0 : IVec S_ 32 := constantI S_ 32 0#32
  let main_v4 : IVec S16384 32 := broadcastInDim S16384 ![] bcast_S_S16384 main_c_0
  let main_v5 : IVec S16384 1 := cmpi .sge main_arg1 main_v4
  let main_c_1 : IVec S_ 32 := constantI S_ 32 99999#32
  let main_v6 : IVec S16384 32 := broadcastInDim S16384 ![] bcast_S_S16384 main_c_1
  let main_v7 : IVec S16384 1 := cmpi .sle main_arg1 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  main_v10
-- ==== Kernel.lean ====
abbrev S100000x128 : Shape := ⟨2, ![100000, 128]⟩
abbrev S16384 : Shape := ⟨1, ![16384]⟩
abbrev S16384x128 : Shape := ⟨2, ![16384, 128]⟩
abbrev S512 : Shape := ⟨1, ![512]⟩
abbrev S512x128 : Shape := ⟨2, ![512, 128]⟩
abbrev S_ : Shape := ⟨0, ![]⟩

abbrev nBuf : Table → Nat
  | .hbm => 3
  | .local .scVector .vmem => 2
  | _ => 0

abbrev bufTy : (tb : Table) → Fin (nBuf tb) → BufTy
  | .hbm, ⟨0, _⟩ => ⟨S100000x128, .f32⟩
  | .hbm, ⟨1, _⟩ => ⟨S16384, .i32⟩
  | .hbm, ⟨2, _⟩ => ⟨S16384x128, .f32⟩
  | .local .scVector .vmem, ⟨0, _⟩ => ⟨S512, .i32⟩
  | .local .scVector .vmem, ⟨1, _⟩ => ⟨S512x128, .f32⟩
  | _, _ => ⟨S100000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_3_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S100000x128_S100000x128_0_0 : ∀ a, (![0, 0] : Fin 2 → Nat) a + S100000x128.size a ≤ S100000x128.size a
  gathers_S100000x128_S512x128 : S100000x128.Gathers 0 S512x128
  hcc0_scratch2 : 0 + S_.numel ≤ 3
  hcc0_scoped0 : 1 + S_.numel ≤ 3
  hcc0_scoped1 : 2 + S_.numel ≤ 3
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_off2_inb : ∀ i : grid0.Coords, ∀ a, (k0_off2 i) a + S512x128.size a ≤ S16384x128.size a

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1

class Facts : Prop extends Facts₀ where

variable [Facts]
-- ==== ReferenceIdeal.lean ====
abbrev S100000x128 : Shape := ⟨2, ![100000, 128]⟩
abbrev S16384 : Shape := ⟨1, ![16384]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩

abbrev nBuf : Space → Nat
  | .hbm => 25
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S16384, .i32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x128, .f32⟩
  | .hbm, ⟨21, _⟩ => ⟨S16384x128, .i1⟩
  | .hbm, ⟨22, _⟩ => ⟨S_, .f32⟩
  | .hbm, ⟨23, _⟩ => ⟨S16384x128, .f32⟩
  | .hbm, ⟨24, _⟩ => ⟨S16384x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  gather_S100000x128_S16384x1_S16384x128_1_0_n_n_0_1_1128_wf : GatherDims.WF S100000x128 S16384x1 S16384x128 [1] [0] [] [0] [] 1 ![1, 128]

variable [Facts₀]

def gather_S100000x128_S16384x1_S16384x128_1_0_n_n_0_1_1128 : GatherDims S100000x128 S16384x1 S16384x128 where
  offsetDims := [1]
  collapsedSliceDims := [0]
  operandBatchingDims := []
  startIndicesBatchingDims := []
  startIndexMap := [0]
  indexVectorDim := 1
  sliceSizes := ![1, 128]
  wf := gather_S100000x128_S16384x1_S16384x128_1_0_n_n_0_1_1128_wf

class Facts : Prop extends Facts₀ where

variable [Facts]
-- ==== Proof.Spec.lean ====
/-
  The specification both programs are compared against: a row lookup. The table has 100000 rows of 128
  numbers and the list has 16384 words; row `r` of the result is the table's row named by the `r`-th word.
  A word is read as a signed number and clamped into `[0, 99999]`; for a word that already names a row
  (`InRange`) the clamp does nothing and the row is the word's own value.
-/
import Idealize.ShloMosaic.Lib.ValueIdx

noncomputable section

namespace Cert.Spec

open Idealize.ShloMosaic Idealize.ShloMosaic.ValueIdx

/-- The table's, the list's and the result's extents. -/
abbrev STable : Shape := ⟨2, ![100000, 128]⟩
abbrev SList : Shape := ⟨1, ![16384]⟩
abbrev SOut : Shape := ⟨2, ![16384, 128]⟩

/-- Every word of the list names a row of the table. -/
def InRange (idx : IVec SList 32) : Prop := ∀ j : SList.Idx, (idx j).toNat < 100000

/-- The row a word names: its signed value, clamped into `[0, 99999]`. -/
def rowOf (v : BitVec 32) : Fin 100000 := ⟨min v.toInt.toNat 99999, by omega⟩

/-- A word below 100000 is non-negative as a signed number and names the row of its own value. -/
theorem rowOf_val {v : BitVec 32} (h : v.toNat < 100000) : (rowOf v).val = v.toNat := by
  have hi : v.toInt = (v.toNat : Int) := by
    rw [BitVec.toInt_eq_toNat_cond]; simp only [Nat.reducePow]; split <;> omega
  show min v.toInt.toNat 99999 = v.toNat
  rw [hi, Int.toNat_natCast]; omega

/-- The lookup: entry `(r, k)` of the result is entry `(rowOf (idx r), k)` of the table. -/
def gathered {α : Type} (x : STable.Idx → α) (idx : IVec SList 32) : SOut.Idx → α :=
  fun i => x (ix2 (rowOf (idx (ix1 (n := 16384) (i 0)))) (i 1))

theorem gathered_apply {α : Type} (x : STable.Idx → α) (idx : IVec SList 32) (r : Fin 16384) (k : Fin 128) :
    gathered x idx (ix2 r k) = x (ix2 (rowOf (idx (ix1 r))) k) := rfl

end Cert.Spec

end
-- ==== Proof.PreRange.lean ====
/-
  The precondition read as a range fact. The printed predicate is the conjunction of "every table entry is finite"
  and "every word of the list is, read signed, at least 0 and at most 99999", each an `and`-reduction to one bit.
  From the predicate being all ones we keep the integer half: every word, read unsigned, is below 100000.
-/
import proofs.«209209_g56281251446868_cont_9to1c4b_102_10_alg».proof.Pre_input_domain
import proofs.«209209_g56281251446868_cont_9to1c4b_102_10_alg».proof.Proof.Spec
import Idealize.ShloMosaic.Lib.ReduceAll

namespace Cert.RefSide

open Idealize.ShloMosaic

/-- A rank-0 shape has one index. -/
instance subsingleton_scalarIdx : Subsingleton Cert.Pre_input_domain.S_.Idx :=
  ⟨fun a b => funext fun d => d.elim0⟩

/-- A word that is, read signed, between 0 and 99999 is below 100000 read unsigned. -/
theorem toNat_lt_of_signed_range {v : BitVec 32} (h0 : (0#32 : BitVec 32).toInt ≤ v.toInt)
    (h1 : v.toInt ≤ (99999#32 : BitVec 32).toInt) : v.toNat < 100000 := by
  have e0 : (0#32 : BitVec 32).toInt = 0 := by decide
  have e1 : (99999#32 : BitVec 32).toInt = 99999 := by decide
  rw [e0] at h0; rw [e1] at h1
  have hv := BitVec.toInt_eq_toNat_cond v
  simp only [Nat.reducePow] at hv
  split at hv <;> omega

/-- The precondition's integer half: every word of the list names a row of the table. -/
theorem inRange_of_pre {F : FTy → Type} [FloatOps F] [Cert.Pre_input_domain.Facts]
    (x : FVec F Cert.Pre_input_domain.S100000x128 .f32) (idx : IVec Cert.Pre_input_domain.S16384 32)
    (h : Cert.Pre_input_domain.fn (F := F) x idx = fun _ => 1#1) : Cert.Spec.InRange idx := by
  intro j
  have h0 := congrFun h ValueIdx.ix0
  dsimp only [Cert.Pre_input_domain.fn] at h0
  obtain ⟨-, h9⟩ := IntOp.andi_eq_one.1 h0
  have h8 := Host.reduce_andi_all _ _ _ _ _ h9 j
  obtain ⟨h5, h7⟩ := IntOp.andi_eq_one.1 h8
  exact toNat_lt_of_signed_range (IntOp.cmpi_sge.1 h5) (IntOp.cmpi_sle.1 h7)

end Cert.RefSide
-- ==== Proof.RefTerm.lean ====
/-
  The reference's result as a term of its two arguments: the operations of the reference composed in order.
  A word of the list that is negative is wrapped (`+ 100000`); the wrapped list, as a column, is the start indices of
  a row gather; a row whose wrapped word is outside `[0, 99999]` is masked to a constant.
-/
import proofs.«209209_g56281251446868_cont_9to1c4b_102_10_alg».proof.ReferenceIdeal

noncomputable section

namespace Cert.RefSide

open Cert.ReferenceIdeal Idealize.ShloMosaic

variable {F : FTy → Type} [FloatOps F] [Cert.ReferenceIdeal.Facts]
open Cert.ReferenceIdeal.Facts₀

/-- The list with a negative word wrapped: `idx < 0 ? idx + 100000 : idx`. -/
def wrapped (idx : IVec S16384 32) : IVec S16384 32 :=
  select (cmpi .slt idx (broadcastInDim S16384 ![] bcast_S_S16384 (constantI S_ 32 0#32)))
    (addi idx (broadcastInDim S16384 ![] bcast_S_S16384 (constantI S_ 32 100000#32))) idx

/-- The wrapped list as a column of start indices. -/
def col (idx : IVec S16384 32) : IVec S16384x1 32 :=
  broadcastInDim S16384x1 ![0] bcast_S16384_S16384x1_0 (wrapped idx)

/-- Per row: is the wrapped word inside `[0, 99999]`? -/
def mask (idx : IVec S16384 32) : IVec S16384 1 :=
  Host.reduce IntOp.andi
    (andi (cmpi .sge (col idx) (broadcastInDim S16384x1 ![] bcast_S_S16384x1 (constantI S_ 32 0#32)))
      (cmpi .sle (col idx) (broadcastInDim S16384x1 ![0, 1] bcast_S1x1_S16384x1_0_1
        (broadcastInDim S1x1 ![1] bcast_S1_S1x1_1 (constantI S1 32 99999#32)))))
    (constantI S_ 1 1#1) reducesTo_S16384x1_S16384_d1 h_S_

/-- The rows the start indices name. -/
def rows (x : FVec F S100000x128 .f32) (idx : IVec S16384 32) : FVec F S16384x128 .f32 :=
  Host.gather gather_S100000x128_S16384x1_S16384x128_1_0_n_n_0_1_1128 x (col idx)

/-- The result: the named rows where the mask holds, the constant elsewhere. -/
def out (x : FVec F S100000x128 .f32) (idx : IVec S16384 32) : FVec F S16384x128 .f32 :=
  select (broadcastInDim S16384x128 ![0] bcast_S16384_S16384x128_0 (mask idx)) (rows x idx)
    (broadcastInDim S16384x128 ![] bcast_S_S16384x128 (constant S_ .f32 0x7FC00000#32))

end Cert.RefSide

end
-- ==== Proof.RefRun.lean ====
/-
  The reference program's run. Its @main calls one outlined function, which itself calls another; unfolding the two
  definitions at their calls gives one straight line of 23 host operations over the call's own buffers. Every weakly fair
  execution of that line terminates, and each buffer ends at the fold of the operations' results over the launch contents.
  The result buffer's fold is `out`, the operations' composed term of the two arguments (defined with the term's parts in the module this one imports).
-/
import proofs.«209209_g56281251446868_cont_9to1c4b_102_10_alg».proof.Proof.RefTerm
import Idealize.ShloMosaic.Lib.StableHlo.Run

noncomputable section

namespace Cert.RefSide

open Cert.ReferenceIdeal Idealize.ShloMosaic Idealize.ShloMosaic.TcCoe Idealize.SL.Sem Idealize.ShloMosaic.StableHlo

variable {F : FTy → Type} [FloatOps F] [Cert.ReferenceIdeal.Facts]
open Cert.ReferenceIdeal.Facts₀

/-- The line: the outer function's operations in order, the inner function's one operation (the select that wraps a
    negative word) in the place of its call. -/
abbrev ops : List (HloOp τ sig (Elt F)) :=
  [ TRef.nullary main_call0.c (constantI S_ 32 0#32),
    TRef.unary main_call0.c main_call0.v0 (broadcastInDim S16384 ![] bcast_S_S16384),
    TRef.binary (.of main_arg1) main_call0.v0 main_call0.v1 (cmpi .slt),
    TRef.nullary main_call0.c_0 (constantI S_ 32 100000#32),
    TRef.unary main_call0.c_0 main_call0.v2 (broadcastInDim S16384 ![] bcast_S_S16384),
    TRef.binary (.of main_arg1) main_call0.v2 main_call0.v3 addi,
    TRef.ternary main_call0.v1 main_call0.v3 (.of main_arg1) main_call0.call0.v0 select,
    TRef.unary main_call0.call0.v0 main_call0.v5 (broadcastInDim S16384x1 ![0] bcast_S16384_S16384x1_0),
    TRef.nullary main_call0.c_1 (constantI S1 32 99999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg0) main_call0.v5 main_call0.v13 (fun x i => Host.gather gather_S100000x128_S16384x1_S16384x128_1_0_n_n_0_1_1128 x i),
    TRef.unary main_call0.v12 main_call0.v14 (broadcastInDim S16384x128 ![0] bcast_S16384_S16384x128_0),
    TRef.nullary main_call0.cst (constant S_ .f32 0x7FC00000#32),
    TRef.unary main_call0.cst main_call0.v15 (broadcastInDim S16384x128 ![] bcast_S_S16384x128),
    TRef.ternary main_call0.v14 main_call0.v13 main_call0.v15 main_call0.v16 select ]

/-- @main is that line: the two functions' definitions unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- Every weakly fair execution of @main terminates, and every final state has each buffer at the line's fold over the
    launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The result as a term of the arguments -/

attribute [local irreducible] Host.reduce Host.gather in
set_option maxRecDepth 8192 in
/-- The fold at the result buffer is `out` of the two arguments' contents: each operation's result decides whether the
    buffer read is the one it writes, and the typed references' transports are the identity at these literal references. -/
theorem out_eq (V : Valuation τ sig (Elt F)) :
    after ops V (main_v0 : DevRef τ sig) = out (V (main_arg0 : DevRef τ sig)) (V (main_arg1 : DevRef τ sig)) := by
  after_results
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

/-- The run with the result named: the result buffer at `out` of the arguments, the arguments unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (out_eq _), (h c main_arg0).trans (arg0_eq _),
    (h c main_arg1).trans (arg1_eq _)⟩) (run_ops m ρ)

end Cert.RefSide

end
-- ==== Proof.RefValue.lean ====
/-
  The reference's result is the lookup. Under the range fact (every word of the list, read unsigned, is below 100000):
  no word is negative, so the wrap is the identity; every word is inside `[0, 99999]`, so the mask is all ones and the
  final select keeps the gathered rows; and the row gather at `(r, k)` reads the table at the row its start index
  names (read signed and clamped, which is `Spec.rowOf`) and column `k`.
-/
import proofs.«209209_g56281251446868_cont_9to1c4b_102_10_alg».proof.Proof.RefTerm
import proofs.«209209_g56281251446868_cont_9to1c4b_102_10_alg».proof.Proof.Spec
import Idealize.ShloMosaic.Lib.ValueIdx
import Idealize.ShloMosaic.Lib.Affine
import Idealize.ShloMosaic.PureOps.Reduce

noncomputable section

namespace Cert.RefSide

open Cert.ReferenceIdeal Idealize.ShloMosaic Idealize.ShloMosaic.ValueIdx

variable {F : FTy → Type} [FloatOps F] [Cert.ReferenceIdeal.Facts]
open Cert.ReferenceIdeal.Facts₀

/-- A word below 100000 reads the same signed and unsigned. -/
theorem toInt_of_lt {v : BitVec 32} (h : v.toNat < 100000) : v.toInt = (v.toNat : Int) := by
  rw [BitVec.toInt_eq_toNat_cond]; simp only [Nat.reducePow]; split <;> omega

/-- Under the range fact no word is negative: the wrap is the identity. -/
theorem wrapped_eq {idx : IVec S16384 32} (h : Cert.Spec.InRange idx) : wrapped idx = idx := by
  funext j
  show Scalar.select (IntOp.cmpi .slt (idx j) 0#32) (IntOp.addi (idx j) 100000#32) (idx j) = idx j
  have hn : ¬ IntOp.cmpi .slt (idx j) 0#32 = 1#1 := by
    rw [IntOp.cmpi_slt, toInt_of_lt (h j), show (0#32 : BitVec 32).toInt = 0 from by decide]; omega
  rw [eq_zero_of_ne_one hn, select_zero]

/-- A list as a column, read at an entry: the entry's row. -/
theorem col_apply (y : IVec S16384 32) (i : S16384x1.Idx) :
    broadcastInDim S16384x1 ![0] bcast_S16384_S16384x1_0 y i = y (ix1 (n := 16384) (i 0)) := by
  unfold broadcastInDim
  congr 1
  funext a
  match a with
  | ⟨0, _⟩ => rfl

/-- A per-row bit spread along the rows, read at an entry: the entry's row. -/
theorem spread_apply (y : IVec S16384 1) (i : S16384x128.Idx) :
    broadcastInDim S16384x128 ![0] bcast_S16384_S16384x128_0 y i = y (ix1 (n := 16384) (i 0)) := by
  unfold broadcastInDim
  congr 1
  funext a
  match a with
  | ⟨0, _⟩ => rfl

/-- A left fold by `and` from 1 over 1s is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, hf => by
    rw [List.foldl_cons]
    exact foldl_andi_one f l _ (by rw [hi, hf a List.mem_cons_self]; decide) (fun n hn => hf n (List.mem_cons_of_mem _ hn))

/-- Under the range fact every row's mask bit is 1. -/
theorem mask_eq {idx : IVec S16384 32} (h : Cert.Spec.InRange idx) (j : S16384.Idx) : mask idx j = 1#1 := by
  unfold mask
  rw [Host.reduce_eq_foldl]
  refine foldl_andi_one _ _ _ rfl fun i _ => ?_
  show IntOp.andi (IntOp.cmpi .sge (col idx i) 0#32) (IntOp.cmpi .sle (col idx i) 99999#32) = 1#1
  have hc : col idx i = idx (ix1 (n := 16384) (i 0)) := by rw [col, col_apply, wrapped_eq h]
  have e0 : (0#32 : BitVec 32).toInt = 0 := by decide
  have e1 : (99999#32 : BitVec 32).toInt = 99999 := by decide
  have hv := h (ix1 (n := 16384) (i 0))
  rw [hc, IntOp.andi_eq_one, IntOp.cmpi_sge, IntOp.cmpi_sle, toInt_of_lt hv, e0, e1]
  exact ⟨by omega, by omega⟩

/-- The row gather read at an entry `j`: the table at the row the start index of `j`'s row names (read signed,
    clamped into `[0, 99999]`) and `j`'s column. -/
theorem gather_apply {α : Type} (x : S100000x128.Idx → α) (c : IVec S16384x1 32) (j : S16384x128.Idx) :
    Host.gather gather_S100000x128_S16384x1_S16384x128_1_0_n_n_0_1_1128 x c j
      = x (ix2 (Cert.Spec.rowOf (c (ix2 (n0 := 16384) (n1 := 1) (j 0) 0))) (j 1)) := by
  unfold Host.gather
  congr 1
  funext a
  refine Fin.ext ?_
  match a with
  | ⟨0, _⟩ =>
    show gather_S100000x128_S16384x1_S16384x128_1_0_n_n_0_1_1128.start j c 0
        + gather_S100000x128_S16384x1_S16384x128_1_0_n_n_0_1_1128.batchCoord j 0
        + gather_S100000x128_S16384x1_S16384x128_1_0_n_n_0_1_1128.offCoord j 0
      = min (c (ix2 (n0 := 16384) (n1 := 1) (j 0) 0)).toInt.toNat 99999
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x128_S16384x1_S16384x128_1_0_n_n_0_1_1128.startIndexMap
      from List.mem_singleton.mpr rfl)]
    have hsi : gather_S100000x128_S16384x1_S16384x128_1_0_n_n_0_1_1128.siIdx j
        ⟨List.idxOf (0 : Fin 2) gather_S100000x128_S16384x1_S16384x128_1_0_n_n_0_1_1128.startIndexMap,
          List.idxOf_lt_length_iff.2 (List.mem_singleton.mpr rfl)⟩ = ix2 (n0 := 16384) (n1 := 1) (j 0) 0 := by
      funext b; refine Fin.ext ?_
      match b with
      | ⟨0, _⟩ => rfl
      | ⟨1, _⟩ => rfl
    rw [hsi]
    rfl
  | ⟨1, _⟩ =>
    show gather_S100000x128_S16384x1_S16384x128_1_0_n_n_0_1_1128.start j c 1
        + gather_S100000x128_S16384x1_S16384x128_1_0_n_n_0_1_1128.batchCoord j 1
        + gather_S100000x128_S16384x1_S16384x128_1_0_n_n_0_1_1128.offCoord j 1
      = (j 1).val
    have hs : gather_S100000x128_S16384x1_S16384x128_1_0_n_n_0_1_1128.start j c 1 = 0 := by
      unfold GatherDims.start
      exact dif_neg (by decide : ¬ (1 : Fin 2) ∈ ([0] : List (Fin 2)))
    rw [hs, GatherDims.batchCoord_eq_zero _ _ _ List.not_mem_nil]
    simp only [Nat.add_zero, Nat.zero_add]
    unfold GatherDims.offCoord
    rw [dif_pos (show (1 : Fin 2) ∈ gather_S100000x128_S16384x1_S16384x128_1_0_n_n_0_1_1128.sKept
      from (by decide : (1 : Fin 2) ∈ Shape.kept S100000x128 (([0] : List (Fin 2)) ++ [])))]
    rfl

/-- The reference's result term is the lookup, under the range fact. -/
theorem out_eq_gathered (x : FVec F S100000x128 .f32) {idx : IVec S16384 32} (h : Cert.Spec.InRange idx) :
    out x idx = Cert.Spec.gathered x idx := by
  funext i
  rw [out, select_apply, spread_apply, mask_eq h, select_one, rows, gather_apply, col, col_apply, wrapped_eq h]
  rfl

end Cert.RefSide

end
-- ==== Proof.RefLookup.lean ====
/-
  The reference's run, with its result named by the specification: under the range fact on the list, every weakly fair
  execution of the reference terminates with the result buffer holding the lookup of the table at the list, and the two
  arguments unchanged.
-/
import proofs.«209209_g56281251446868_cont_9to1c4b_102_10_alg».proof.Proof.RefRun
import proofs.«209209_g56281251446868_cont_9to1c4b_102_10_alg».proof.Proof.RefValue

noncomputable section

namespace Cert.RefSide

open Idealize.ShloMosaic Idealize.ShloMosaic.TcCoe Idealize.SL.Sem

theorem run [Cert.ReferenceIdeal.Facts]
    (m : (ℓ : Loc Cert.ReferenceIdeal.nD Cert.ReferenceIdeal.τ Cert.ReferenceIdeal.sig) → Buf (Elt Ideal) ℓ)
    (g : Dev Cert.ReferenceIdeal.nD → PrngReg)
    (hin : ∀ c : Dev Cert.ReferenceIdeal.nD,
      Cert.Spec.InRange (m ((c.tc : Thread Cert.ReferenceIdeal.nD Cert.ReferenceIdeal.τ).loc Cert.ReferenceIdeal.main_arg1))) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
        r.2.mem ((c.tc : Thread Cert.ReferenceIdeal.nD Cert.ReferenceIdeal.τ).loc Cert.ReferenceIdeal.main_v0)
            = Cert.Spec.gathered (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)) :=
  (θ_run (Cert.ReferenceIdeal.defs (F := Ideal)) _ _).mono
    (fun _ h c => ⟨(h c).1.trans (out_eq_gathered _ (hin c)), (h c).2⟩) (run_out (F := Ideal) m g)

end Cert.RefSide

end
-- ==== Proof.RefClaims.lean ====
/-
  The reference's claim of the certificate: under the precondition the reference runs to the end, faults nowhere and
  leaves its two arguments unchanged. The precondition gives the range fact on the list; the reference's run under that
  fact names the result and keeps the arguments; the frame claim is that run with the result dropped.
-/
import proofs.«209209_g56281251446868_cont_9to1c4b_102_10_alg».proof.Defs
import proofs.«209209_g56281251446868_cont_9to1c4b_102_10_alg».proof.Proof.PreRange
import proofs.«209209_g56281251446868_cont_9to1c4b_102_10_alg».proof.Proof.RefLookup

noncomputable section

namespace Cert.RefSide

open Idealize.ShloMosaic Idealize.SL.Sem

/-- The precondition on a memory of the reference's signature gives the range fact on its list, on every device. -/
theorem inRange_of_pre_ri [hR : Cert.ReferenceIdeal.Facts] [hP : Cert.Pre_input_domain.Facts]
    (m : (ℓ : Loc Cert.ReferenceIdeal.nD Cert.ReferenceIdeal.τ Cert.ReferenceIdeal.sig) → Buf (Elt Ideal) ℓ)
    (hpre : Cert.Pre_ReferenceIdeal (hPre_input_domain := hP) m) (c : Dev Cert.ReferenceIdeal.nD) :
    Cert.Spec.InRange (m ((c.tc : Thread Cert.ReferenceIdeal.nD Cert.ReferenceIdeal.τ).loc Cert.ReferenceIdeal.main_arg1)) :=
  inRange_of_pre (F := Ideal) _ _ (hpre c)

/-- The reference's frame claim. -/
theorem frame_ri [hR : Cert.ReferenceIdeal.Facts] [hP : Cert.Pre_input_domain.Facts] :
    Cert.frame_ReferenceIdeal (hReferenceIdeal := hR) (hPre_input_domain := hP) :=
  fun m g hpre => (θ_run (Cert.ReferenceIdeal.defs (F := Ideal)) _ _).mono (fun _ h c => (h c).2)
    (run m g (inRange_of_pre_ri m hpre))

/-- The reference's half of the comparison at the ideal instance: from a memory agreeing with the idealized kernel's on
    the two arguments, and the precondition on the kernel's memory, the reference ends with its result the lookup of the
    KERNEL's table at the KERNEL's list, and its own arguments unchanged. -/
theorem algebraic_ref [hKI : Cert.KernelIdeal.Facts] [hR : Cert.ReferenceIdeal.Facts] [hP : Cert.Pre_input_domain.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (g' : Dev Cert.ReferenceIdeal.nD → PrngReg)
    (hpre : Cert.Pre_KernelIdeal (hPre_input_domain := hP) m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD,
        r.2.mem ((c.tc : Thread Cert.ReferenceIdeal.nD Cert.ReferenceIdeal.τ).loc Cert.ReferenceIdeal.main_v0)
          = Cert.Spec.gathered (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) :=
  (θ_run (Cert.ReferenceIdeal.defs (F := Ideal)) _ _).mono
    (fun _ h c => ⟨(h c).1.trans (by rw [(hagree c).1, (hagree c).2]), (h c).2⟩)
    (run m' g' fun c => by
      rw [(hagree c).2]
      exact inRange_of_pre (F := Ideal) _ _ (hpre c))

end Cert.RefSide

end
-- ==== Proof.KBody.lean ====
/-
  One task of the row lookup, on the vector subcore at grid point `L = (c, s)`. The task owns rows
  `[512 w, 512 w + 512)` of the result, `w = 2 s + c`: it copies words `[512 w, 512 w + 512)` of the list into its
  own list buffer, gathers the table's rows those words name into its own row buffer, and copies that buffer onto
  its rows of the result. Each copy is waited for before the next begins. The table and the list are only read
  (held at a read share); the result's rows are held in full and end at the lookup's value on those rows.
-/
import proofs.«209209_g56281251446868_cont_9to1c4b_102_10_alg».proof.Defs
import proofs.«209209_g56281251446868_cont_9to1c4b_102_10_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209209_g56281251446868_cont_9to1c4b_102_10_alg».proof.Proof.Gen.Kernel
import proofs.«209209_g56281251446868_cont_9to1c4b_102_10_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The table, the list and the result, as locations of device `d`. -/
abbrev xLoc (d : Dev nD) : Loc nD τ sig := (SparseCore.T d).loc main_arg0
abbrev iLoc (d : Dev nD) : Loc nD τ sig := (SparseCore.T d).loc main_arg1
abbrev oLoc (d : Dev nD) : Loc nD τ sig := (SparseCore.T d).loc main_v0

-- the arrays and a task's two buffers, spelt as the body table passes them
local notation "xW" => (Memref.whole Cert.Kernel.main_arg0_scv : Memref Cert.Kernel.sig Kind.scVector Space.hbm Cert.Kernel.S100000x128 EltTy.f32)
local notation "iW" => (Memref.whole Cert.Kernel.main_arg1_scv : Memref Cert.Kernel.sig Kind.scVector Space.hbm Cert.Kernel.S16384 EltTy.i32)
local notation "oW" => (Memref.whole Cert.Kernel.main_v0_scv : Memref Cert.Kernel.sig Kind.scVector Space.hbm Cert.Kernel.S16384x128 EltTy.f32)
local notation "lW" => (Memref.whole Cert.Kernel.cc0_scratch0 : Memref Cert.Kernel.sig Kind.scVector Space.vmem Cert.Kernel.S512 EltTy.i32)
local notation "rW" => (Memref.whole Cert.Kernel.cc0_scratch1 : Memref Cert.Kernel.sig Kind.scVector Space.vmem Cert.Kernel.S512x128 EltTy.f32)

/-- The lookup's value on device `d`: what the result must end at. -/
def GO (d : Dev nD) : Buf (Elt F) (oLoc d) := Cert.Spec.gathered (m (xLoc d)) (m (iLoc d))

/-- What the proof asks of the launch memory: every word of the list names a row of the table. -/
def PreOK : Prop := ∀ d : Dev nD, Cert.Spec.InRange (m (iLoc d))

variable [FloatOps F]

/-! ## The result's 32 row blocks -/

theorem hdiv : 32 ∣ S16384x128.size 0 := ⟨512, rfl⟩
abbrev blk (w : Fin 32) : Rect S16384x128 := Rect.part (s := S16384x128) (a₀ := 0) hdiv w
abbrev blkSet (w : Fin 32) : Finset S16384x128.Idx := ((oW).view.slice (blk w)).set

/-- The table and the list at their launch contents, at a share; a row block of the result at `f`. -/
abbrev xPts (d : Dev nD) (q : PosShare TreeShare) : sProp 𝕄 := xLoc d ↦{q} m (xLoc d)
abbrev iPts (d : Dev nD) (q : PosShare TreeShare) : sProp 𝕄 := iLoc d ↦{q} m (iLoc d)
abbrev oBlkPts (d : Dev nD) (w : Fin 32) (f : Buf (Elt F) (oLoc d)) : sProp 𝕄 := oLoc d ↦[blkSet w]{fullShare} f

section Tile

variable (d : Dev nD) (L : grid0.Coords)

abbrev cV (L : grid0.Coords) : Fin τ.nSC := (L 0).castLE hcore0
abbrev jV (L : grid0.Coords) : Fin τ.nSub := (L 1).castLE hsub0
/-- The block a grid point owns: `2 s + c`. -/
def wL (L : grid0.Coords) : Fin 32 :=
  ⟨2 * (L 1).val + (L 0).val, by have h0 : (L 0).val < 2 := (L 0).isLt; have h1 : (L 1).val < 16 := (L 1).isLt; omega⟩

abbrev oBlkK (L : grid0.Coords) : Memref sig .scVector .hbm S512x128 .f32 := (oW).slice (Rect.unit (s := S16384x128) (k0_off2 L) S512x128.size (k0_off2_inb L)) (fun _ => rfl)
abbrev iBlkK (L : grid0.Coords) : Memref sig .scVector .hbm S512 .i32 := (iW).slice (Rect.unit (s := S16384) (k0_off1 L) S512.size (k0_off1_inb L)) (fun _ => rfl)

abbrev c0cell : GSem nD τ sig := (V d (cV L) (jV L), .dma cc0_scratch2.sem)
abbrev c1cell : GSem nD τ sig := (V d (cV L) (jV L), .dma cc0_scoped0.sem)
abbrev c2cell : GSem nD τ sig := (V d (cV L) (jV L), .dma cc0_scoped1.sem)

omit [FloatOps F] in
theorem ownSems0_V :
    (ownSems0 (V d (cV L) (jV L)) : sProp 𝕄)
      = iprop(semVal (c0cell d L) 0 ∗ semVal (c1cell d L) 0 ∗ semVal (c2cell d L) 0
          ∗ bigSep ((((ownCells (V d (cV L) (jV L))).erase (c0cell d L)).erase (c1cell d L)).erase (c2cell d L))
              fun g => semVal g 0) := by
  unfold SparseCore.Cfg.ownSems0
  rw [SparseCore.bigSep_erase' ((mem_ownCells (g := c0cell d L)).mpr ⟨rfl, by
      show (SemLoc.dma cc0_scratch2.sem : SemLoc sig).isScoped .scVector = true; decide⟩),
    SparseCore.bigSep_erase' (Finset.mem_erase.mpr ⟨by simp [c0cell, c1cell]; decide, (mem_ownCells (g := c1cell d L)).mpr ⟨rfl, by
      show (SemLoc.dma cc0_scoped0.sem : SemLoc sig).isScoped .scVector = true; decide⟩⟩),
    SparseCore.bigSep_erase' (Finset.mem_erase.mpr ⟨by simp [c1cell, c2cell]; decide, Finset.mem_erase.mpr ⟨by simp [c0cell, c2cell]; decide,
      (mem_ownCells (g := c2cell d L)).mpr ⟨rfl, by show (SemLoc.dma cc0_scoped1.sem : SemLoc sig).isScoped .scVector = true; decide⟩⟩⟩)]

omit [FloatOps F] in
/-- The two buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- The program's rectangle for the task's rows of the result is block `2 s + c` of the cut into 32. -/
theorem blkK_eq : Rect.unit (s := S16384x128) (k0_off2 L) S512x128.size (k0_off2_inb L) = blk (wL L) := by
  unfold blk Rect.part Rect.block
  congr 1 <;> funext a
  · rw [k0_off2_eq]
    match a with
    | 0 => simp [Shape.partIx, Shape.partSize, wL]; omega
    | 1 => simp [Shape.partIx, Shape.partSize]
  · match a with
    | 0 => simp [Shape.partSize]
    | 1 => simp [Shape.partSize]
omit [FloatOps F] in
theorem set_oBlkK : (oBlkK L).view.set = blkSet (wL L) := by
  show ((oW).view.slice (Rect.unit (s := S16384x128) (k0_off2 L) S512x128.size (k0_off2_inb L))).set = ((oW).view.slice (blk (wL L))).set
  rw [blkK_eq]

omit [FloatOps F] in
theorem pts_x (q : PosShare TreeShare) (f : Buf (Elt F) (xLoc d)) :
    ((xW).view.loc (V d (cV L) (jV L)) ↦{q} f : sProp 𝕄) = xLoc d ↦{q} f := by
  simp only [Memref.view_whole, View.set_whole]
omit [FloatOps F] in
theorem pts_i (q : PosShare TreeShare) (f : Buf (Elt F) (iLoc d)) :
    ((iW).view.loc (V d (cV L) (jV L)) ↦{q} f : sProp 𝕄) = iLoc d ↦{q} f := by
  simp only [Memref.view_whole, View.set_whole]
omit [FloatOps F] in
theorem pts_o (f : Buf (Elt F) (oLoc d)) :
    ((oBlkK L).view.loc (V d (cV L) (jV L)) ↦[(oBlkK L).view.set]{fullShare} f : sProp 𝕄) = oLoc d ↦[blkSet (wL L)]{fullShare} f := by
  rw [set_oBlkK]
omit [FloatOps F] in
theorem pts_l (f : Buf (Elt F) ((V d (cV L) (jV L)).loc cc0_scratch0)) :
    ((lW).view.loc (V d (cV L) (jV L)) ↦{fullShare} f : sProp 𝕄) = (V d (cV L) (jV L)).loc cc0_scratch0 ↦{fullShare} f := rfl
omit [FloatOps F] in
theorem pts_r (f : Buf (Elt F) ((V d (cV L) (jV L)).loc cc0_scratch1)) :
    ((rW).view.loc (V d (cV L) (jV L)) ↦{fullShare} f : sProp 𝕄) = (V d (cV L) (jV L)).loc cc0_scratch1 ↦{fullShare} f := rfl

omit [FloatOps F] in
/-- The words a task fetched are words of the list, so each names a row of the table: whatever the task's list
    buffer held before, after the fetch every word it holds is below 100000. -/
theorem list_inRange (hpre : PreOK m) (g : Buf (Elt F) ((V d (cV L) (jV L)).loc cc0_scratch0)) (x : S512.Idx) :
    ((lW).view.read (Elt F) ((lW).view.write (Elt F) g (ReadAs.same.apply ((iBlkK L).view.read (Elt F) (m (iLoc d)))) Finset.univ) x).toNat
      < S100000x128.size gathers_S100000x128_S512x128.axis := by
  simp only [Memref.view_whole]
  rw [View.write_whole_univ, View.read_whole]
  show ((iBlkK L).view.read (Elt F) (m (iLoc d)) x).toNat < 100000
  rw [(View.read_apply _ _).trans (cast_eq _ _)]
  exact hpre d _

/-- The table as the gather reads it: the program's whole-array window of it. -/
abbrev xSlK : Memref sig .scVector .hbm S100000x128 .f32 :=
  (xW).slice (Rect.unit (s := S100000x128) ![0, 0] S100000x128.size inb_S100000x128_S100000x128_0_0) (fun _ => rfl)

omit [FloatOps F] in
/-- The task reads the list and writes the result at the same offset: `1024 s + 512 c`. -/
theorem off1_eq_off2 : k0_off1 L 0 = k0_off2 L 0 := by rw [k0_off1_eq, k0_off2_eq]; rfl

omit [FloatOps F] in
/-- After the first copy, word `z` of the task's list buffer is the list's word at `512 w + z`. -/
theorem list_word (g : Buf (Elt F) ((V d (cV L) (jV L)).loc cc0_scratch0)) (z : S512.Idx) :
    (lW).view.read (Elt F) ((lW).view.write (Elt F) g (ReadAs.same.apply ((iBlkK L).view.read (Elt F) (m (iLoc d)))) Finset.univ) z
      = m (iLoc d) ((iBlkK L).view.emb z) := by
  simp only [Memref.view_whole]
  rw [View.write_whole_univ, View.read_whole]
  exact (View.read_apply _ _).trans (cast_eq _ _)

omit [FloatOps F] in
/-- Word `z` of the task's stretch of the list sits at the row of entry `y` of its block of the result, when `z`
    is `y`'s row within the block. -/
theorem iBlk_emb_eq (z : S512.Idx) (y : S512x128.Idx) (h : (z 0).val = (y 0).val) :
    (iBlkK L).view.emb z = ValueIdx.ix1 (n := 16384) ((oBlkK L).view.emb y 0) := by
  funext b
  apply Fin.ext
  match b with
  | ⟨0, _⟩ =>
    show k0_off1 L 0 + 1 * (z 0).val = k0_off2 L 0 + 1 * (y 0).val
    rw [off1_eq_off2, h]

omit [FloatOps F] in
/-- What the task's last copy leaves at entry `y` of its block of the result is the lookup's value there: the copy
    wrote the row buffer, the gather had filled the row buffer's row `y 0` with the table's row named by word
    `y 0` of the list buffer, and the first copy had filled the list buffer with words
    `[512 w, 512 w + 512)` of the list, so that word is the list's word at the entry's own row. -/
theorem out_value (hpre : PreOK m) (fl : Buf (Elt F) ((V d (cV L) (jV L)).loc cc0_scratch0)) (fr : Buf (Elt F) ((V d (cV L) (jV L)).loc cc0_scratch1))
    (hin : ∀ (g : Buf (Elt F) ((V d (cV L) (jV L)).loc cc0_scratch0)) (x : S512.Idx),
      ((lW).view.read (Elt F) ((lW).view.write (Elt F) g (ReadAs.same.apply ((iBlkK L).view.read (Elt F) (m (iLoc d)))) Finset.univ) x).toNat
        < S100000x128.size gathers_S100000x128_S512x128.axis)
    (hn : S512.numel = S512x128.size gathers_S100000x128_S512x128.axis') (y : S512x128.Idx) :
    ((oBlkK L).view.writes (Elt F) (m (oLoc d)) [⟨Rect.whole S512x128, ReadAs.same.apply ((rW).view.read (Elt F) ((rW).view.writes (Elt F) fr
        [⟨Rect.whole S512x128, SparseCore.gatherPayload gathers_S100000x128_S512x128
            ((xSlK).view.read (Elt F) (m (xLoc d)))
            (SparseCore.rows ((lW).view.read (Elt F) ((lW).view.write (Elt F) fl (ReadAs.same.apply ((iBlkK L).view.read (Elt F) (m (iLoc d)))) Finset.univ))
              hn (hin fl))⟩]))⟩])
      ((oBlkK L).view.emb y) = GO m d ((oBlkK L).view.emb y) := by
  have h1 : ∀ (w : S512x128.Idx → Elt F .f32),
      ((oBlkK L).view.writes (Elt F) (m (oLoc d)) [⟨Rect.whole S512x128, w⟩]) ((oBlkK L).view.emb y) = w y := by
    intro w
    have h := congrFun (View.read_writes_whole (oBlkK L).view (m (oLoc d)) w) y
    rwa [(View.read_apply _ _).trans (cast_eq _ _)] at h
  rw [h1]
  refine (congrFun (View.read_writes_whole (rW).view fr _) y).trans ?_
  unfold SparseCore.gatherPayload
  rw [(View.read_apply _ _).trans (cast_eq _ _)]
  unfold GO Cert.Spec.gathered
  refine congrArg (m (xLoc d)) ?_
  funext a
  apply Fin.ext
  match a with
  | ⟨0, h0⟩ =>
    show 0 + 1 * (gathers_S100000x128_S512x128.idx (SparseCore.rows _ hn (hin fl)) y ⟨0, h0⟩).val = (Cert.Spec.rowOf _).val
    have e0 : (gathers_S100000x128_S512x128.idx (SparseCore.rows _ hn (hin fl)) y ⟨0, h0⟩).val
        = (SparseCore.rows _ hn (hin fl) (y gathers_S100000x128_S512x128.axis')).val := by
      unfold Shape.Gathers.idx; rw [dif_pos rfl]; rfl
    rw [e0, Cert.Spec.rowOf_val (hpre d _)]
    unfold SparseCore.rows
    show 0 + 1 * ((lW).view.read (Elt F) _ _).toNat = _
    rw [list_word, iBlk_emb_eq L _ y (by
      have h := Shape.rowMajor_val_one (S512.rowMajor.symm ((y gathers_S100000x128_S512x128.axis').cast hn.symm))
      rw [Equiv.apply_symm_apply] at h
      exact h.symm)]
    omega
  | ⟨1, h1'⟩ =>
    show 0 + 1 * (gathers_S100000x128_S512x128.idx (SparseCore.rows _ hn (hin fl)) y ⟨1, h1'⟩).val = k0_off2 L 1 + 1 * (y 1).val
    have e1 : (gathers_S100000x128_S512x128.idx (SparseCore.rows _ hn (hin fl)) y ⟨1, h1'⟩).val = (y 1).val := by
      unfold Shape.Gathers.idx; rw [dif_neg (show ¬ (1 : ℕ) = 0 by decide)]; rfl
    rw [e1, k0_off2_eq]
    show 0 + 1 * (y 1).val = 0 + 1 * (y 1).val
    rfl

/-- The task on vector subcore `(L 0, L 1)` of device `d`. -/
theorem tile_body (hF : (K (F := F)).Facts) (hpre : PreOK m) (qx qi : PosShare TreeShare) (O : CellTallies nD τ sig (HIx 1)) (W : Waits sig (HIx 1)) (hO : ∀ g, O g none = 0) :
    iprop(levAts (K (F := F)).L (K (F := F)).lev ∗ emp
        ∗ (xPts m d qx ∗ iPts m d qi ∗ oBlkPts d (wL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_kernel L xW (Memref.isWhole_whole _) iW (Memref.isWhole_whole _) oW (Memref.isWhole_whole _)
            lW (Memref.isWhole_whole _) rW (Memref.isWhole_whole _) cc0_scratch2 cc0_scoped0 cc0_scoped1)
          fun _ => iprop((xPts m d qx ∗ iPts m d qi ∗ oBlkPts d (wL L) (GO m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__gather_kernel_eq_skeleton]; unfold cc0__gather_kernel_skel
  rw [(K (F := F)).scopedBufs_V hF d (cV L) (jV L), SparseCore.Cfg.scopedSems0_V (Val := Elt F) d (cV L) (jV L), ownSems0_V, ownBufs_V]
  iintro ⟨#Hlv, -, ⟨Hx, Hi, Ho⟩, ⟨⟨%fl, Hl⟩, ⟨%fr, Hr⟩, Hbufs⟩, ⟨Hs0, Hs1, Hs2, Hsems⟩, HO⟩
  ihave Hmw := ((K (F := F)).mayWaits_none (thr := V d (cV L) (jV L)) hO) $$ Hlv
  ihave Hx' := (Entails.of_eq (pts_x (F := F) d L _ _).symm) $$ Hx
  ihave Hi' := (Entails.of_eq (pts_i (F := F) d L _ _).symm) $$ Hi
  ihave Ho' := (Entails.of_eq (pts_o (F := F) d L _).symm) $$ Ho
  ihave Hl' := (Entails.of_eq (pts_l (F := F) d L _).symm) $$ Hl
  ihave Hr' := (Entails.of_eq (pts_r (F := F) d L _).symm) $$ Hr
  have hin := list_inRange m d L hpre
  sl_exec
  rw [wp_ret]; imodintro
  isplitl [Hx' Hi' Ho']
  · isplitl [Hx']; · iapply (Entails.of_eq (pts_x (F := F) d L _ _)); iexact Hx'
    isplitl [Hi']; · iapply (Entails.of_eq (pts_i (F := F) d L _ _)); iexact Hi'
    iapply (Entails.of_eq ((pts_o (F := F) d L _).symm.trans (pointsTo_congr (fun i hi => by
      obtain ⟨y, -, rfl⟩ := Finset.mem_map.mp hi
      exact (out_value m d L hpre fl fr hin (by decide) y).symm))).symm)
    iexact Ho'
  isplitl [Hl' Hr' Hbufs]
  · isplitl [Hl']; · iexists _; iapply (Entails.of_eq (pts_l (F := F) d L _)); iexact Hl'
    isplitl [Hr']; · iexists _; iapply (Entails.of_eq (pts_r (F := F) d L _)); iexact Hr'
    iexact Hbufs
  isplitl [Hs0 Hs1 Hs2 Hsems]
  · isplitl [Hs0]; · iexact Hs0
    isplitl [Hs1]; · iexact Hs1
    isplitl [Hs2]; · iexact Hs2
    iexact Hsems
  iexists (insert (SemLoc.dma cc0_scoped1.sem, (default : HIx 1)) (insert (SemLoc.dma cc0_scratch2.sem, (default : HIx 1))
    (insert (SemLoc.dma cc0_scoped0.sem, (default : HIx 1)) W))); isplitr
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp
  iexact HO

end Tile

end Cert.Proof.KB

end
-- ==== Proof.LibTaskShares.lean ====
/-
  Sharing one array among the tasks of a two-core, sixteen-subcore mesh, for any machine.

  READ SHARES. An array every task only reads is held whole by one owner; the whole share is cut into two shares (one per
  core, `tokC c`) and a rest, and each of those into sixteen (one per task, `tokT c i`) and a rest: `shares_out`.
  The three rests (`shRest`) stay with the owner, and with the thirty-two task shares back they make the whole share
  again: `shares_in`. The contents `f` never change.

  BLOCKS. An array cut into thirty-two blocks, block `2 i + c` to task `i` of core `c` (`wOf`): a separating
  conjunction over the thirty-two blocks is the one over core 0's sixteen (the even blocks) beside the one over core 1's
  sixteen (the odd blocks): `bigSep_parity`. `bigSep_fin2` is the two-element conjunction written out.
-/
import Idealize.ShloMosaic.Lib.Transfers
import Idealize.ShloMosaic.Lib.SparseCore.Launch

noncomputable section

namespace Cert.LibTaskShares

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type} {Name : Type} [DecidableEq Name]
variable {U : Type} [URA U] {Lvl : Type} [Preorder Lvl]

local notation "𝕄" => MT nD τ sig Ix Val Name U Lvl

/-- Core `c`'s read share of an array held whole, and task `i`'s share of that. -/
abbrev tokC (c : ℕ) : PosShare TreeShare := Transfers.shareTokN fullShare c
abbrev tokT (c i : ℕ) : PosShare TreeShare := Transfers.shareTokN (tokC c) i

/-- The block of task `i` of core `c`: `2 i + c`. -/
def wOf (c : Fin 2) (i : Fin 16) : Fin 32 := ⟨2 * i.val + c.val, by omega⟩

/-- A conjunction over two is the two side by side. -/
theorem bigSep_fin2 (Φ : Fin 2 → sProp 𝕄) : bigSep (Finset.univ : Finset (Fin 2)) Φ = iprop(Φ 0 ∗ Φ 1) := by
  rw [show (Finset.univ : Finset (Fin 2)) = {0, 1} by decide, SparseCore.bigSep_insert' (by decide), bigSep_singleton]

/-- A whole share's two core shares, side by side. -/
theorem toks2_eq {ℓ : Loc nD τ sig} (f : Buf Val ℓ) :
    (bigSep Finset.univ fun c : Fin 2 => (ℓ ↦{Transfers.shareTok fullShare 2 c} f : sProp 𝕄)) = iprop((ℓ ↦{tokC 0} f) ∗ ℓ ↦{tokC 1} f) :=
  bigSep_fin2 _

/-- What is left of an array's whole share once the two cores' sixteen task shares each are cut from it. -/
def shRest {ℓ : Loc nD τ sig} (f : Buf Val ℓ) : sProp 𝕄 :=
  iprop((ℓ ↦{Transfers.shareDrop fullShare 2} f) ∗ (ℓ ↦{Transfers.shareDrop (tokC 0) 16} f) ∗ (ℓ ↦{Transfers.shareDrop (tokC 1) 16} f))

/-- An array held whole is cut into the thirty-two task shares and the rest, -/
theorem shares_out {ℓ : Loc nD τ sig} (f : Buf Val ℓ) :
    (ℓ ↦{fullShare} f : sProp 𝕄) ⊢ iprop(shRest f ∗ (bigSep Finset.univ fun i : Fin 16 => ℓ ↦{tokT 0 i.val} f)
      ∗ bigSep Finset.univ fun i : Fin 16 => ℓ ↦{tokT 1 i.val} f) := by
  iintro H
  ihave H2 := (Transfers.pointsTo_toks_split (ℓ := ℓ) (S := Finset.univ) (f := f) fullShare 2) $$ H
  icases H2 with ⟨Hd, Hc⟩
  ihave Hc' := (Entails.of_eq (toks2_eq f)) $$ Hc
  icases Hc' with ⟨H0, H1⟩
  ihave H0' := (Transfers.pointsTo_toks_split (ℓ := ℓ) (S := Finset.univ) (f := f) (tokC 0) 16) $$ H0
  ihave H1' := (Transfers.pointsTo_toks_split (ℓ := ℓ) (S := Finset.univ) (f := f) (tokC 1) 16) $$ H1
  icases H0' with ⟨H0d, H0t⟩
  icases H1' with ⟨H1d, H1t⟩
  unfold shRest
  isplitl [Hd H0d H1d]
  · isplitl [Hd]; · iexact Hd
    isplitl [H0d]; · iexact H0d
    iexact H1d
  isplitl [H0t]; · iexact H0t
  iexact H1t

/-- and put together again from them. -/
theorem shares_in {ℓ : Loc nD τ sig} (f : Buf Val ℓ) :
    iprop(shRest f ∗ (bigSep Finset.univ fun i : Fin 16 => ℓ ↦{tokT 0 i.val} f)
      ∗ bigSep Finset.univ fun i : Fin 16 => ℓ ↦{tokT 1 i.val} f) ⊢ (ℓ ↦{fullShare} f : sProp 𝕄) := by
  unfold shRest
  iintro ⟨⟨Hd, H0d, H1d⟩, H0t, H1t⟩
  ihave H0 := (Transfers.pointsTo_toks_join (ℓ := ℓ) (S := Finset.univ) (f := f) (tokC 0) 16) $$ [H0d H0t]
  · isplitl [H0d]; · iexact H0d
    iexact H0t
  ihave H1 := (Transfers.pointsTo_toks_join (ℓ := ℓ) (S := Finset.univ) (f := f) (tokC 1) 16) $$ [H1d H1t]
  · isplitl [H1d]; · iexact H1d
    iexact H1t
  iapply (Transfers.pointsTo_toks_join (ℓ := ℓ) (S := Finset.univ) (f := f) fullShare 2)
  isplitl [Hd]; · iexact Hd
  iapply (Entails.of_eq (toks2_eq f).symm)
  isplitl [H0]; · iexact H0
  iexact H1

/-- Different tasks of one core own different blocks. -/
theorem wOf_injOn (c : Fin 2) : Set.InjOn (wOf c) ((Finset.univ : Finset (Fin 16)) : Set (Fin 16)) := by
  intro a _ b _ e
  have h := congrArg Fin.val e
  simp only [wOf] at h
  exact Fin.ext (by omega)

/-- The thirty-two blocks are the even ones (core 0's tasks') and the odd ones (core 1's). -/
theorem bigSep_parity (Φ : Fin 32 → sProp 𝕄) :
    bigSep (Finset.univ : Finset (Fin 32)) Φ = iprop((bigSep Finset.univ fun i : Fin 16 => Φ (wOf 0 i)) ∗ bigSep Finset.univ fun i : Fin 16 => Φ (wOf 1 i)) := by
  rw [show (Finset.univ : Finset (Fin 32)) = (Finset.univ.image (wOf 0)) ∪ (Finset.univ.image (wOf 1)) by decide,
    SparseCore.bigSep_union' (by decide), SparseCore.bigSep_image_of_injOn (wOf_injOn 0) Φ, SparseCore.bigSep_image_of_injOn (wOf_injOn 1) Φ]

end Cert.LibTaskShares

end
-- ==== Proof.KLaunch.lean ====
/-
  The whole run of the row lookup's program. The TensorCore's one call hands the two SparseCores' thirty-two tasks
  what each needs and takes it back: the table and the list, which every task only reads, go out as read shares
  (the whole share cut in two for the SparseCores, each half in sixteen for its tasks); the result is cut into its
  thirty-two blocks of 512 rows, block `2 s + c` to task `s` of SparseCore `c`. Each task brings its block back
  at the lookup's value; the blocks put together are the whole result at the lookup's value, and the shares put
  together are the table and the list whole and unchanged.
-/
import proofs.«209209_g56281251446868_cont_9to1c4b_102_10_alg».proof.Proof.KBody
import proofs.«209209_g56281251446868_cont_9to1c4b_102_10_alg».proof.Proof.LibTaskShares

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.LibTaskShares

variable {F : FTy → Type}

local notation "𝕄" => MT nD τ sig (HIx 1) (Elt F) ℕ UU ℕ

variable (m : (ℓ : Loc nD τ sig) → Buf (Elt F) ℓ) (ρ : Dev nD → PrngReg)

/-! ## What a task holds: its read shares of the table and the list, its block of the result -/

/-- What a task is handed and hands back: its shares of the table and the list, its block of the result at `f`. -/
def taskRes (d : Dev nD) (c : Fin 2) (i : Fin 16) (f : Buf (Elt F) (oLoc d)) : sProp 𝕄 :=
  iprop(xPts m d (tokT c.val i.val) ∗ iPts m d (tokT c.val i.val) ∗ oBlkPts d (wOf c i) f)

instance taskRes_storable (d : Dev nD) (c : Fin 2) (i : Fin 16) (f : Buf (Elt F) (oLoc d)) :
    BI.Storable (upEmb : UEmb _ 𝕄) (taskRes m d c i f) := by unfold taskRes; infer_instance

/-- The one call: a SparseCore is handed its sixteen tasks' resources, the result's blocks at their launch contents,
    and hands them back with the blocks at the lookup's value. -/
def P : (K (F := F)).Pay (nD := nD) (Val := Elt F) (Name := ℕ) (U := UU) where
  st := fun q d c => match q with
    | 0 => bigSep Finset.univ fun i : Fin 16 => taskRes m d (Fin.cast nCore_zero c) i (m (oLoc d))
  dn := fun q d c => match q with
    | 0 => bigSep Finset.univ fun i : Fin 16 => taskRes m d (Fin.cast nCore_zero c) i (GO m d)
  go := fun q d c i => match q with
    | 0 => taskRes m d (Fin.cast nCore_zero c) (Fin.cast nSub_zero i) (m (oLoc d))
  td := fun q d c i => match q with
    | 0 => taskRes m d (Fin.cast nCore_zero c) (Fin.cast nSub_zero i) (GO m d)
  x := fun _ _ => iprop(emp)

instance P_storable : (P (F := F) m).IsStorable where
  st q d c := match q with
    | 0 => (inferInstance : BI.Storable (upEmb : UEmb _ 𝕄) (bigSep Finset.univ fun i : Fin 16 => taskRes m d (Fin.cast nCore_zero c) i (m (oLoc d))))
  dn q d c := match q with
    | 0 => (inferInstance : BI.Storable (upEmb : UEmb _ 𝕄) (bigSep Finset.univ fun i : Fin 16 => taskRes m d (Fin.cast nCore_zero c) i (GO m d)))
  go q d c i := match q with
    | 0 => (inferInstance : BI.Storable (upEmb : UEmb _ 𝕄) (taskRes m d (Fin.cast nCore_zero c) (Fin.cast nSub_zero i) (m (oLoc d))))
  td q d c i := match q with
    | 0 => (inferInstance : BI.Storable (upEmb : UEmb _ 𝕄) (taskRes m d (Fin.cast nCore_zero c) (Fin.cast nSub_zero i) (GO m d)))

variable [FloatOps F]

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_kernel (coordsV c s)
          (Memref.whole main_arg0_scv) (Memref.isWhole_whole _) (Memref.whole main_arg1_scv) (Memref.isWhole_whole _) (Memref.whole main_v0_scv) (Memref.isWhole_whole _)
          (Memref.whole cc0_scratch0) (Memref.isWhole_whole _) (Memref.whole cc0_scratch1) (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre _ _ O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun i : Fin 16 => taskRes m d (Fin.cast nCore_zero c) i (m (oLoc d))) ⊢ |={Set.univ}=> iprop(
      (bigSep Finset.univ fun i : Fin ((K (F := F)).nSub 0) => taskRes m d (Fin.cast nCore_zero c) (Fin.cast nSub_zero i) (m (oLoc d)))
      ∗ ((bigSep Finset.univ fun i : Fin ((K (F := F)).nSub 0) => taskRes m d (Fin.cast nCore_zero c) (Fin.cast nSub_zero i) (GO m d))
          -∗ bigSep Finset.univ fun i : Fin 16 => taskRes m d (Fin.cast nCore_zero c) i (GO m d)))
  rw [bigSep_tasks (F := F) (fun i => taskRes m d (Fin.cast nCore_zero c) i (m (oLoc d))),
    bigSep_tasks (F := F) (fun i => taskRes m d (Fin.cast nCore_zero c) i (GO m d))]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## Cutting the arrays for the tasks, and putting them back -/

omit [FloatOps F] in
theorem blkSet_eq (w : Fin 32) : blkSet w = (blk w).set := by
  show ((View.whole (main_v0_scv : Ref sig .scVector)).slice (blk w)).set = _
  rw [View.set_slice]; exact Finset.map_refl
omit [FloatOps F] in
theorem blks_disjoint : ∀ i ∈ (Finset.univ : Finset (Fin 32)), ∀ j ∈ (Finset.univ : Finset (Fin 32)), i ≠ j → Disjoint (blkSet i) (blkSet j) :=
  fun i _ j _ h => by rw [blkSet_eq, blkSet_eq]; exact Rect.part_disjoint hdiv h
omit [FloatOps F] in
theorem blks_cover : (Finset.univ : Finset (Fin 32)).biUnion blkSet = Finset.univ :=
  (Finset.biUnion_congr rfl fun i _ => blkSet_eq i).trans (Rect.biUnion_part hdiv)

omit [FloatOps F] in
/-- The result held whole is its thirty-two blocks held. -/
theorem oPts_blks (d : Dev nD) (f : Buf (Elt F) (oLoc d)) :
    (oLoc d ↦{fullShare} f : sProp 𝕄) = bigSep Finset.univ fun w : Fin 32 => oLoc d ↦[blkSet w]{fullShare} f := by
  rw [← pointsTo_biUnion Finset.univ (ℓ := oLoc d) blkSet blks_disjoint, blks_cover]; try rfl

/-- A SparseCore's sixteen task resources are its tasks' table shares, list shares and blocks. -/
theorem tasks_eq (d : Dev nD) (c : Fin 2) (f : Buf (Elt F) (oLoc d)) :
    (bigSep Finset.univ fun i : Fin 16 => taskRes m d c i f)
      = iprop((bigSep Finset.univ fun i : Fin 16 => xPts m d (tokT c.val i.val)) ∗ (bigSep Finset.univ fun i : Fin 16 => iPts m d (tokT c.val i.val))
          ∗ bigSep Finset.univ fun i : Fin 16 => oBlkPts d (wOf c i) f) := by
  unfold taskRes; rw [bigSep_sep', bigSep_sep']

theorem st0_eq (d : Dev nD) : (bigSep Finset.univ fun c : Fin ((K (F := F)).nCore 0) => (P m).st 0 d c)
    = iprop((bigSep Finset.univ fun i : Fin 16 => taskRes m d 0 i (m (oLoc d))) ∗ bigSep Finset.univ fun i : Fin 16 => taskRes m d 1 i (m (oLoc d))) :=
  bigSep_fin2 (fun c : Fin 2 => bigSep Finset.univ fun i : Fin 16 => taskRes m d c i (m (oLoc d)))
theorem dn0_eq (d : Dev nD) : (bigSep Finset.univ fun c : Fin ((K (F := F)).nCore 0) => (P m).dn 0 d c)
    = iprop((bigSep Finset.univ fun i : Fin 16 => taskRes m d 0 i (GO m d)) ∗ bigSep Finset.univ fun i : Fin 16 => taskRes m d 1 i (GO m d)) :=
  bigSep_fin2 (fun c : Fin 2 => bigSep Finset.univ fun i : Fin 16 => taskRes m d c i (GO m d))

/-- The three arrays held whole, the result at `f`, are the rests of the table's and the list's shares and the two
    SparseCores' task resources; and back. -/
theorem arrays_out (d : Dev nD) (f : Buf (Elt F) (oLoc d)) :
    iprop(xPts m d fullShare ∗ iPts m d fullShare ∗ oLoc d ↦{fullShare} f)
      ⊢ iprop((shRest (m (xLoc d)) ∗ shRest (m (iLoc d)))
          ∗ (bigSep Finset.univ fun i : Fin 16 => taskRes m d 0 i f) ∗ bigSep Finset.univ fun i : Fin 16 => taskRes m d 1 i f) := by
  rw [tasks_eq, tasks_eq, oPts_blks, bigSep_parity]
  iintro ⟨Hx, Hi, ⟨Ho0, Ho1⟩⟩
  ihave Hx' := (shares_out (m (xLoc d))) $$ Hx
  ihave Hi' := (shares_out (m (iLoc d))) $$ Hi
  icases Hx' with ⟨Hxr, Hx0, Hx1⟩
  icases Hi' with ⟨Hir, Hi0, Hi1⟩
  isplitl [Hxr Hir]
  · isplitl [Hxr]; · iexact Hxr
    iexact Hir
  isplitl [Hx0 Hi0 Ho0]
  · isplitl [Hx0]; · iexact Hx0
    isplitl [Hi0]; · iexact Hi0
    iexact Ho0
  · isplitl [Hx1]; · iexact Hx1
    isplitl [Hi1]; · iexact Hi1
    iexact Ho1

theorem arrays_in (d : Dev nD) (f : Buf (Elt F) (oLoc d)) :
    iprop((shRest (m (xLoc d)) ∗ shRest (m (iLoc d)))
          ∗ (bigSep Finset.univ fun i : Fin 16 => taskRes m d 0 i f) ∗ bigSep Finset.univ fun i : Fin 16 => taskRes m d 1 i f)
      ⊢ iprop(xPts m d fullShare ∗ iPts m d fullShare ∗ oLoc d ↦{fullShare} f) := by
  rw [tasks_eq, tasks_eq, oPts_blks, bigSep_parity]
  iintro ⟨⟨Hxr, Hir⟩, ⟨Hx0, Hi0, Ho0⟩, ⟨Hx1, Hi1, Ho1⟩⟩
  isplitl [Hxr Hx0 Hx1]
  · iapply (shares_in (m (xLoc d)))
    isplitl [Hxr]; · iexact Hxr
    isplitl [Hx0]; · iexact Hx0
    iexact Hx1
  isplitl [Hir Hi0 Hi1]
  · iapply (shares_in (m (iLoc d)))
    isplitl [Hir]; · iexact Hir
    isplitl [Hi0]; · iexact Hi0
    iexact Hi1
  isplitl [Ho0]; · iexact Ho0
  iexact Ho1

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (iLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What @main leaves the claim: the table and the list whole at their launch contents, the result whole at the
    lookup's value. -/
abbrev FIN (d : Dev nD) : sProp 𝕄 := iprop(xPts m d fullShare ∗ iPts m d fullShare ∗ oLoc d ↦{fullShare} GO m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, Harr, -, -⟩, -⟩
  ihave Hcut := (arrays_out m d (m (oLoc d))) $$ Harr
  icases Hcut with ⟨Hrest, Htasks⟩
  iapply ((K (F := F)).wp_run (D (F := F)) 𝒱 (EH := EH) (P := P m) κ d 0) $$ [Hst Htasks Hrest]
  isplitr; · iexact Hctx
  isplitl [Hst]; · iexact Hst
  isplitl [Htasks]
  · rw [st0_eq]; iexact Htasks
  iintro ⟨Hst, Hdn⟩
  ihave Hdn' := (Entails.of_eq (dn0_eq m d)) $$ Hdn
  ihave Harr := (arrays_in m d (GO m d)) $$ [Hrest Hdn']
  · isplitl [Hrest]; · iexact Hrest
    iexact Hdn'
  imodintro
  isplitl [Hst]; · iexact Hst
  iexact Harr

def fq (d : Dev nD) (s' : Phys nD τ sig (Elt F)) : Prop :=
  s'.mem.mem (oLoc d) = GO m d ∧ s'.mem.mem (xLoc d) = m (xLoc d) ∧ s'.mem.mem (iLoc d) = m (iLoc d)

theorem hfin (d : Dev nD) (s' : Phys nD τ sig (Elt F)) : iprop(FIN m d ∗ SI s') ⊢ (⌜fq m d s'⌝ : sProp 𝕄) := by
  iintro ⟨⟨Hx, Hi, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (SI_pointsTo_agree (st := s') (ℓ := oLoc d) (I := Finset.univ) (q := fullShare) (f := GO m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- The result is the lookup's value; the table and the list are unchanged. -/
def QC : PUnit × MemSt nD τ sig (Elt F) → Prop := fun r => ∀ c : Dev nD,
  r.2.mem (oLoc c) = GO m c ∧ r.2.mem (xLoc c) = m (xLoc c) ∧ r.2.mem (iLoc c) = m (iLoc c)

theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.KIBody.lean ====
/-
  One task of the row lookup, on the vector subcore at grid point `L = (c, s)`. The task owns rows
  `[512 w, 512 w + 512)` of the result, `w = 2 s + c`: it copies words `[512 w, 512 w + 512)` of the list into its
  own list buffer, gathers the table's rows those words name into its own row buffer, and copies that buffer onto
  its rows of the result. Each copy is waited for before the next begins. The table and the list are only read
  (held at a read share); the result's rows are held in full and end at the lookup's value on those rows.
-/
import proofs.«209209_g56281251446868_cont_9to1c4b_102_10_alg».proof.Defs
import proofs.«209209_g56281251446868_cont_9to1c4b_102_10_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209209_g56281251446868_cont_9to1c4b_102_10_alg».proof.Proof.Gen.KernelIdeal
import proofs.«209209_g56281251446868_cont_9to1c4b_102_10_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The table, the list and the result, as locations of device `d`. -/
abbrev xLoc (d : Dev nD) : Loc nD τ sig := (SparseCore.T d).loc main_arg0
abbrev iLoc (d : Dev nD) : Loc nD τ sig := (SparseCore.T d).loc main_arg1
abbrev oLoc (d : Dev nD) : Loc nD τ sig := (SparseCore.T d).loc main_v0

-- the arrays and a task's two buffers, spelt as the body table passes them
local notation "xW" => (Memref.whole Cert.KernelIdeal.main_arg0_scv : Memref Cert.KernelIdeal.sig Kind.scVector Space.hbm Cert.KernelIdeal.S100000x128 EltTy.f32)
local notation "iW" => (Memref.whole Cert.KernelIdeal.main_arg1_scv : Memref Cert.KernelIdeal.sig Kind.scVector Space.hbm Cert.KernelIdeal.S16384 EltTy.i32)
local notation "oW" => (Memref.whole Cert.KernelIdeal.main_v0_scv : Memref Cert.KernelIdeal.sig Kind.scVector Space.hbm Cert.KernelIdeal.S16384x128 EltTy.f32)
local notation "lW" => (Memref.whole Cert.KernelIdeal.cc0_scratch0 : Memref Cert.KernelIdeal.sig Kind.scVector Space.vmem Cert.KernelIdeal.S512 EltTy.i32)
local notation "rW" => (Memref.whole Cert.KernelIdeal.cc0_scratch1 : Memref Cert.KernelIdeal.sig Kind.scVector Space.vmem Cert.KernelIdeal.S512x128 EltTy.f32)

/-- The lookup's value on device `d`: what the result must end at. -/
def GO (d : Dev nD) : Buf (Elt F) (oLoc d) := Cert.Spec.gathered (m (xLoc d)) (m (iLoc d))

/-- What the proof asks of the launch memory: every word of the list names a row of the table. -/
def PreOK : Prop := ∀ d : Dev nD, Cert.Spec.InRange (m (iLoc d))

variable [FloatOps F]

/-! ## The result's 32 row blocks -/

theorem hdiv : 32 ∣ S16384x128.size 0 := ⟨512, rfl⟩
abbrev blk (w : Fin 32) : Rect S16384x128 := Rect.part (s := S16384x128) (a₀ := 0) hdiv w
abbrev blkSet (w : Fin 32) : Finset S16384x128.Idx := ((oW).view.slice (blk w)).set

/-- The table and the list at their launch contents, at a share; a row block of the result at `f`. -/
abbrev xPts (d : Dev nD) (q : PosShare TreeShare) : sProp 𝕄 := xLoc d ↦{q} m (xLoc d)
abbrev iPts (d : Dev nD) (q : PosShare TreeShare) : sProp 𝕄 := iLoc d ↦{q} m (iLoc d)
abbrev oBlkPts (d : Dev nD) (w : Fin 32) (f : Buf (Elt F) (oLoc d)) : sProp 𝕄 := oLoc d ↦[blkSet w]{fullShare} f

section Tile

variable (d : Dev nD) (L : grid0.Coords)

abbrev cV (L : grid0.Coords) : Fin τ.nSC := (L 0).castLE hcore0
abbrev jV (L : grid0.Coords) : Fin τ.nSub := (L 1).castLE hsub0
/-- The block a grid point owns: `2 s + c`. -/
def wL (L : grid0.Coords) : Fin 32 :=
  ⟨2 * (L 1).val + (L 0).val, by have h0 : (L 0).val < 2 := (L 0).isLt; have h1 : (L 1).val < 16 := (L 1).isLt; omega⟩

abbrev oBlkK (L : grid0.Coords) : Memref sig .scVector .hbm S512x128 .f32 := (oW).slice (Rect.unit (s := S16384x128) (k0_off2 L) S512x128.size (k0_off2_inb L)) (fun _ => rfl)
abbrev iBlkK (L : grid0.Coords) : Memref sig .scVector .hbm S512 .i32 := (iW).slice (Rect.unit (s := S16384) (k0_off1 L) S512.size (k0_off1_inb L)) (fun _ => rfl)

abbrev c0cell : GSem nD τ sig := (V d (cV L) (jV L), .dma cc0_scratch2.sem)
abbrev c1cell : GSem nD τ sig := (V d (cV L) (jV L), .dma cc0_scoped0.sem)
abbrev c2cell : GSem nD τ sig := (V d (cV L) (jV L), .dma cc0_scoped1.sem)

omit [FloatOps F] in
theorem ownSems0_V :
    (ownSems0 (V d (cV L) (jV L)) : sProp 𝕄)
      = iprop(semVal (c0cell d L) 0 ∗ semVal (c1cell d L) 0 ∗ semVal (c2cell d L) 0
          ∗ bigSep ((((ownCells (V d (cV L) (jV L))).erase (c0cell d L)).erase (c1cell d L)).erase (c2cell d L))
              fun g => semVal g 0) := by
  unfold SparseCore.Cfg.ownSems0
  rw [SparseCore.bigSep_erase' ((mem_ownCells (g := c0cell d L)).mpr ⟨rfl, by
      show (SemLoc.dma cc0_scratch2.sem : SemLoc sig).isScoped .scVector = true; decide⟩),
    SparseCore.bigSep_erase' (Finset.mem_erase.mpr ⟨by simp [c0cell, c1cell]; decide, (mem_ownCells (g := c1cell d L)).mpr ⟨rfl, by
      show (SemLoc.dma cc0_scoped0.sem : SemLoc sig).isScoped .scVector = true; decide⟩⟩),
    SparseCore.bigSep_erase' (Finset.mem_erase.mpr ⟨by simp [c1cell, c2cell]; decide, Finset.mem_erase.mpr ⟨by simp [c0cell, c2cell]; decide,
      (mem_ownCells (g := c2cell d L)).mpr ⟨rfl, by show (SemLoc.dma cc0_scoped1.sem : SemLoc sig).isScoped .scVector = true; decide⟩⟩⟩)]

omit [FloatOps F] in
/-- The two buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- The program's rectangle for the task's rows of the result is block `2 s + c` of the cut into 32. -/
theorem blkK_eq : Rect.unit (s := S16384x128) (k0_off2 L) S512x128.size (k0_off2_inb L) = blk (wL L) := by
  unfold blk Rect.part Rect.block
  congr 1 <;> funext a
  · rw [k0_off2_eq]
    match a with
    | 0 => simp [Shape.partIx, Shape.partSize, wL]; omega
    | 1 => simp [Shape.partIx, Shape.partSize]
  · match a with
    | 0 => simp [Shape.partSize]
    | 1 => simp [Shape.partSize]
omit [FloatOps F] in
theorem set_oBlkK : (oBlkK L).view.set = blkSet (wL L) := by
  show ((oW).view.slice (Rect.unit (s := S16384x128) (k0_off2 L) S512x128.size (k0_off2_inb L))).set = ((oW).view.slice (blk (wL L))).set
  rw [blkK_eq]

omit [FloatOps F] in
theorem pts_x (q : PosShare TreeShare) (f : Buf (Elt F) (xLoc d)) :
    ((xW).view.loc (V d (cV L) (jV L)) ↦{q} f : sProp 𝕄) = xLoc d ↦{q} f := by
  simp only [Memref.view_whole, View.set_whole]
omit [FloatOps F] in
theorem pts_i (q : PosShare TreeShare) (f : Buf (Elt F) (iLoc d)) :
    ((iW).view.loc (V d (cV L) (jV L)) ↦{q} f : sProp 𝕄) = iLoc d ↦{q} f := by
  simp only [Memref.view_whole, View.set_whole]
omit [FloatOps F] in
theorem pts_o (f : Buf (Elt F) (oLoc d)) :
    ((oBlkK L).view.loc (V d (cV L) (jV L)) ↦[(oBlkK L).view.set]{fullShare} f : sProp 𝕄) = oLoc d ↦[blkSet (wL L)]{fullShare} f := by
  rw [set_oBlkK]
omit [FloatOps F] in
theorem pts_l (f : Buf (Elt F) ((V d (cV L) (jV L)).loc cc0_scratch0)) :
    ((lW).view.loc (V d (cV L) (jV L)) ↦{fullShare} f : sProp 𝕄) = (V d (cV L) (jV L)).loc cc0_scratch0 ↦{fullShare} f := rfl
omit [FloatOps F] in
theorem pts_r (f : Buf (Elt F) ((V d (cV L) (jV L)).loc cc0_scratch1)) :
    ((rW).view.loc (V d (cV L) (jV L)) ↦{fullShare} f : sProp 𝕄) = (V d (cV L) (jV L)).loc cc0_scratch1 ↦{fullShare} f := rfl

omit [FloatOps F] in
/-- The words a task fetched are words of the list, so each names a row of the table: whatever the task's list
    buffer held before, after the fetch every word it holds is below 100000. -/
theorem list_inRange (hpre : PreOK m) (g : Buf (Elt F) ((V d (cV L) (jV L)).loc cc0_scratch0)) (x : S512.Idx) :
    ((lW).view.read (Elt F) ((lW).view.write (Elt F) g (ReadAs.same.apply ((iBlkK L).view.read (Elt F) (m (iLoc d)))) Finset.univ) x).toNat
      < S100000x128.size gathers_S100000x128_S512x128.axis := by
  simp only [Memref.view_whole]
  rw [View.write_whole_univ, View.read_whole]
  show ((iBlkK L).view.read (Elt F) (m (iLoc d)) x).toNat < 100000
  rw [(View.read_apply _ _).trans (cast_eq _ _)]
  exact hpre d _

/-- The table as the gather reads it: the program's whole-array window of it. -/
abbrev xSlK : Memref sig .scVector .hbm S100000x128 .f32 :=
  (xW).slice (Rect.unit (s := S100000x128) ![0, 0] S100000x128.size inb_S100000x128_S100000x128_0_0) (fun _ => rfl)

omit [FloatOps F] in
/-- The task reads the list and writes the result at the same offset: `1024 s + 512 c`. -/
theorem off1_eq_off2 : k0_off1 L 0 = k0_off2 L 0 := by rw [k0_off1_eq, k0_off2_eq]; rfl

omit [FloatOps F] in
/-- After the first copy, word `z` of the task's list buffer is the list's word at `512 w + z`. -/
theorem list_word (g : Buf (Elt F) ((V d (cV L) (jV L)).loc cc0_scratch0)) (z : S512.Idx) :
    (lW).view.read (Elt F) ((lW).view.write (Elt F) g (ReadAs.same.apply ((iBlkK L).view.read (Elt F) (m (iLoc d)))) Finset.univ) z
      = m (iLoc d) ((iBlkK L).view.emb z) := by
  simp only [Memref.view_whole]
  rw [View.write_whole_univ, View.read_whole]
  exact (View.read_apply _ _).trans (cast_eq _ _)

omit [FloatOps F] in
/-- Word `z` of the task's stretch of the list sits at the row of entry `y` of its block of the result, when `z`
    is `y`'s row within the block. -/
theorem iBlk_emb_eq (z : S512.Idx) (y : S512x128.Idx) (h : (z 0).val = (y 0).val) :
    (iBlkK L).view.emb z = ValueIdx.ix1 (n := 16384) ((oBlkK L).view.emb y 0) := by
  funext b
  apply Fin.ext
  match b with
  | ⟨0, _⟩ =>
    show k0_off1 L 0 + 1 * (z 0).val = k0_off2 L 0 + 1 * (y 0).val
    rw [off1_eq_off2, h]

omit [FloatOps F] in
/-- What the task's last copy leaves at entry `y` of its block of the result is the lookup's value there: the copy
    wrote the row buffer, the gather had filled the row buffer's row `y 0` with the table's row named by word
    `y 0` of the list buffer, and the first copy had filled the list buffer with words
    `[512 w, 512 w + 512)` of the list, so that word is the list's word at the entry's own row. -/
theorem out_value (hpre : PreOK m) (fl : Buf (Elt F) ((V d (cV L) (jV L)).loc cc0_scratch0)) (fr : Buf (Elt F) ((V d (cV L) (jV L)).loc cc0_scratch1))
    (hin : ∀ (g : Buf (Elt F) ((V d (cV L) (jV L)).loc cc0_scratch0)) (x : S512.Idx),
      ((lW).view.read (Elt F) ((lW).view.write (Elt F) g (ReadAs.same.apply ((iBlkK L).view.read (Elt F) (m (iLoc d)))) Finset.univ) x).toNat
        < S100000x128.size gathers_S100000x128_S512x128.axis)
    (hn : S512.numel = S512x128.size gathers_S100000x128_S512x128.axis') (y : S512x128.Idx) :
    ((oBlkK L).view.writes (Elt F) (m (oLoc d)) [⟨Rect.whole S512x128, ReadAs.same.apply ((rW).view.read (Elt F) ((rW).view.writes (Elt F) fr
        [⟨Rect.whole S512x128, SparseCore.gatherPayload gathers_S100000x128_S512x128
            ((xSlK).view.read (Elt F) (m (xLoc d)))
            (SparseCore.rows ((lW).view.read (Elt F) ((lW).view.write (Elt F) fl (ReadAs.same.apply ((iBlkK L).view.read (Elt F) (m (iLoc d)))) Finset.univ))
              hn (hin fl))⟩]))⟩])
      ((oBlkK L).view.emb y) = GO m d ((oBlkK L).view.emb y) := by
  have h1 : ∀ (w : S512x128.Idx → Elt F .f32),
      ((oBlkK L).view.writes (Elt F) (m (oLoc d)) [⟨Rect.whole S512x128, w⟩]) ((oBlkK L).view.emb y) = w y := by
    intro w
    have h := congrFun (View.read_writes_whole (oBlkK L).view (m (oLoc d)) w) y
    rwa [(View.read_apply _ _).trans (cast_eq _ _)] at h
  rw [h1]
  refine (congrFun (View.read_writes_whole (rW).view fr _) y).trans ?_
  unfold SparseCore.gatherPayload
  rw [(View.read_apply _ _).trans (cast_eq _ _)]
  unfold GO Cert.Spec.gathered
  refine congrArg (m (xLoc d)) ?_
  funext a
  apply Fin.ext
  match a with
  | ⟨0, h0⟩ =>
    show 0 + 1 * (gathers_S100000x128_S512x128.idx (SparseCore.rows _ hn (hin fl)) y ⟨0, h0⟩).val = (Cert.Spec.rowOf _).val
    have e0 : (gathers_S100000x128_S512x128.idx (SparseCore.rows _ hn (hin fl)) y ⟨0, h0⟩).val
        = (SparseCore.rows _ hn (hin fl) (y gathers_S100000x128_S512x128.axis')).val := by
      unfold Shape.Gathers.idx; rw [dif_pos rfl]; rfl
    rw [e0, Cert.Spec.rowOf_val (hpre d _)]
    unfold SparseCore.rows
    show 0 + 1 * ((lW).view.read (Elt F) _ _).toNat = _
    rw [list_word, iBlk_emb_eq L _ y (by
      have h := Shape.rowMajor_val_one (S512.rowMajor.symm ((y gathers_S100000x128_S512x128.axis').cast hn.symm))
      rw [Equiv.apply_symm_apply] at h
      exact h.symm)]
    omega
  | ⟨1, h1'⟩ =>
    show 0 + 1 * (gathers_S100000x128_S512x128.idx (SparseCore.rows _ hn (hin fl)) y ⟨1, h1'⟩).val = k0_off2 L 1 + 1 * (y 1).val
    have e1 : (gathers_S100000x128_S512x128.idx (SparseCore.rows _ hn (hin fl)) y ⟨1, h1'⟩).val = (y 1).val := by
      unfold Shape.Gathers.idx; rw [dif_neg (show ¬ (1 : ℕ) = 0 by decide)]; rfl
    rw [e1, k0_off2_eq]
    show 0 + 1 * (y 1).val = 0 + 1 * (y 1).val
    rfl

/-- The task on vector subcore `(L 0, L 1)` of device `d`. -/
theorem tile_body (hF : (K (F := F)).Facts) (hpre : PreOK m) (qx qi : PosShare TreeShare) (O : CellTallies nD τ sig (HIx 1)) (W : Waits sig (HIx 1)) (hO : ∀ g, O g none = 0) :
    iprop(levAts (K (F := F)).L (K (F := F)).lev ∗ emp
        ∗ (xPts m d qx ∗ iPts m d qi ∗ oBlkPts d (wL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_kernel L xW (Memref.isWhole_whole _) iW (Memref.isWhole_whole _) oW (Memref.isWhole_whole _)
            lW (Memref.isWhole_whole _) rW (Memref.isWhole_whole _) cc0_scratch2 cc0_scoped0 cc0_scoped1)
          fun _ => iprop((xPts m d qx ∗ iPts m d qi ∗ oBlkPts d (wL L) (GO m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__gather_kernel_eq_skeleton]; unfold cc0__gather_kernel_skel
  rw [(K (F := F)).scopedBufs_V hF d (cV L) (jV L), SparseCore.Cfg.scopedSems0_V (Val := Elt F) d (cV L) (jV L), ownSems0_V, ownBufs_V]
  iintro ⟨#Hlv, -, ⟨Hx, Hi, Ho⟩, ⟨⟨%fl, Hl⟩, ⟨%fr, Hr⟩, Hbufs⟩, ⟨Hs0, Hs1, Hs2, Hsems⟩, HO⟩
  ihave Hmw := ((K (F := F)).mayWaits_none (thr := V d (cV L) (jV L)) hO) $$ Hlv
  ihave Hx' := (Entails.of_eq (pts_x (F := F) d L _ _).symm) $$ Hx
  ihave Hi' := (Entails.of_eq (pts_i (F := F) d L _ _).symm) $$ Hi
  ihave Ho' := (Entails.of_eq (pts_o (F := F) d L _).symm) $$ Ho
  ihave Hl' := (Entails.of_eq (pts_l (F := F) d L _).symm) $$ Hl
  ihave Hr' := (Entails.of_eq (pts_r (F := F) d L _).symm) $$ Hr
  have hin := list_inRange m d L hpre
  sl_exec
  rw [wp_ret]; imodintro
  isplitl [Hx' Hi' Ho']
  · isplitl [Hx']; · iapply (Entails.of_eq (pts_x (F := F) d L _ _)); iexact Hx'
    isplitl [Hi']; · iapply (Entails.of_eq (pts_i (F := F) d L _ _)); iexact Hi'
    iapply (Entails.of_eq ((pts_o (F := F) d L _).symm.trans (pointsTo_congr (fun i hi => by
      obtain ⟨y, -, rfl⟩ := Finset.mem_map.mp hi
      exact (out_value m d L hpre fl fr hin (by decide) y).symm))).symm)
    iexact Ho'
  isplitl [Hl' Hr' Hbufs]
  · isplitl [Hl']; · iexists _; iapply (Entails.of_eq (pts_l (F := F) d L _)); iexact Hl'
    isplitl [Hr']; · iexists _; iapply (Entails.of_eq (pts_r (F := F) d L _)); iexact Hr'
    iexact Hbufs
  isplitl [Hs0 Hs1 Hs2 Hsems]
  · isplitl [Hs0]; · iexact Hs0
    isplitl [Hs1]; · iexact Hs1
    isplitl [Hs2]; · iexact Hs2
    iexact Hsems
  iexists (insert (SemLoc.dma cc0_scoped1.sem, (default : HIx 1)) (insert (SemLoc.dma cc0_scratch2.sem, (default : HIx 1))
    (insert (SemLoc.dma cc0_scoped0.sem, (default : HIx 1)) W))); isplitr
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp
  iexact HO

end Tile

end Cert.Proof.KI

end
-- ==== Proof.KILaunch.lean ====
/-
  The whole run of the row lookup's program. The TensorCore's one call hands the two SparseCores' thirty-two tasks
  what each needs and takes it back: the table and the list, which every task only reads, go out as read shares
  (the whole share cut in two for the SparseCores, each half in sixteen for its tasks); the result is cut into its
  thirty-two blocks of 512 rows, block `2 s + c` to task `s` of SparseCore `c`. Each task brings its block back
  at the lookup's value; the blocks put together are the whole result at the lookup's value, and the shares put
  together are the table and the list whole and unchanged.
-/
import proofs.«209209_g56281251446868_cont_9to1c4b_102_10_alg».proof.Proof.KIBody
import proofs.«209209_g56281251446868_cont_9to1c4b_102_10_alg».proof.Proof.LibTaskShares

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.LibTaskShares

variable {F : FTy → Type}

local notation "𝕄" => MT nD τ sig (HIx 1) (Elt F) ℕ UU ℕ

variable (m : (ℓ : Loc nD τ sig) → Buf (Elt F) ℓ) (ρ : Dev nD → PrngReg)

/-! ## What a task holds: its read shares of the table and the list, its block of the result -/

/-- What a task is handed and hands back: its shares of the table and the list, its block of the result at `f`. -/
def taskRes (d : Dev nD) (c : Fin 2) (i : Fin 16) (f : Buf (Elt F) (oLoc d)) : sProp 𝕄 :=
  iprop(xPts m d (tokT c.val i.val) ∗ iPts m d (tokT c.val i.val) ∗ oBlkPts d (wOf c i) f)

instance taskRes_storable (d : Dev nD) (c : Fin 2) (i : Fin 16) (f : Buf (Elt F) (oLoc d)) :
    BI.Storable (upEmb : UEmb _ 𝕄) (taskRes m d c i f) := by unfold taskRes; infer_instance

/-- The one call: a SparseCore is handed its sixteen tasks' resources, the result's blocks at their launch contents,
    and hands them back with the blocks at the lookup's value. -/
def P : (K (F := F)).Pay (nD := nD) (Val := Elt F) (Name := ℕ) (U := UU) where
  st := fun q d c => match q with
    | 0 => bigSep Finset.univ fun i : Fin 16 => taskRes m d (Fin.cast nCore_zero c) i (m (oLoc d))
  dn := fun q d c => match q with
    | 0 => bigSep Finset.univ fun i : Fin 16 => taskRes m d (Fin.cast nCore_zero c) i (GO m d)
  go := fun q d c i => match q with
    | 0 => taskRes m d (Fin.cast nCore_zero c) (Fin.cast nSub_zero i) (m (oLoc d))
  td := fun q d c i => match q with
    | 0 => taskRes m d (Fin.cast nCore_zero c) (Fin.cast nSub_zero i) (GO m d)
  x := fun _ _ => iprop(emp)

instance P_storable : (P (F := F) m).IsStorable where
  st q d c := match q with
    | 0 => (inferInstance : BI.Storable (upEmb : UEmb _ 𝕄) (bigSep Finset.univ fun i : Fin 16 => taskRes m d (Fin.cast nCore_zero c) i (m (oLoc d))))
  dn q d c := match q with
    | 0 => (inferInstance : BI.Storable (upEmb : UEmb _ 𝕄) (bigSep Finset.univ fun i : Fin 16 => taskRes m d (Fin.cast nCore_zero c) i (GO m d)))
  go q d c i := match q with
    | 0 => (inferInstance : BI.Storable (upEmb : UEmb _ 𝕄) (taskRes m d (Fin.cast nCore_zero c) (Fin.cast nSub_zero i) (m (oLoc d))))
  td q d c i := match q with
    | 0 => (inferInstance : BI.Storable (upEmb : UEmb _ 𝕄) (taskRes m d (Fin.cast nCore_zero c) (Fin.cast nSub_zero i) (GO m d)))

variable [FloatOps F]

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_kernel (coordsV c s)
          (Memref.whole main_arg0_scv) (Memref.isWhole_whole _) (Memref.whole main_arg1_scv) (Memref.isWhole_whole _) (Memref.whole main_v0_scv) (Memref.isWhole_whole _)
          (Memref.whole cc0_scratch0) (Memref.isWhole_whole _) (Memref.whole cc0_scratch1) (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre _ _ O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun i : Fin 16 => taskRes m d (Fin.cast nCore_zero c) i (m (oLoc d))) ⊢ |={Set.univ}=> iprop(
      (bigSep Finset.univ fun i : Fin ((K (F := F)).nSub 0) => taskRes m d (Fin.cast nCore_zero c) (Fin.cast nSub_zero i) (m (oLoc d)))
      ∗ ((bigSep Finset.univ fun i : Fin ((K (F := F)).nSub 0) => taskRes m d (Fin.cast nCore_zero c) (Fin.cast nSub_zero i) (GO m d))
          -∗ bigSep Finset.univ fun i : Fin 16 => taskRes m d (Fin.cast nCore_zero c) i (GO m d)))
  rw [bigSep_tasks (F := F) (fun i => taskRes m d (Fin.cast nCore_zero c) i (m (oLoc d))),
    bigSep_tasks (F := F) (fun i => taskRes m d (Fin.cast nCore_zero c) i (GO m d))]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## Cutting the arrays for the tasks, and putting them back -/

omit [FloatOps F] in
theorem blkSet_eq (w : Fin 32) : blkSet w = (blk w).set := by
  show ((View.whole (main_v0_scv : Ref sig .scVector)).slice (blk w)).set = _
  rw [View.set_slice]; exact Finset.map_refl
omit [FloatOps F] in
theorem blks_disjoint : ∀ i ∈ (Finset.univ : Finset (Fin 32)), ∀ j ∈ (Finset.univ : Finset (Fin 32)), i ≠ j → Disjoint (blkSet i) (blkSet j) :=
  fun i _ j _ h => by rw [blkSet_eq, blkSet_eq]; exact Rect.part_disjoint hdiv h
omit [FloatOps F] in
theorem blks_cover : (Finset.univ : Finset (Fin 32)).biUnion blkSet = Finset.univ :=
  (Finset.biUnion_congr rfl fun i _ => blkSet_eq i).trans (Rect.biUnion_part hdiv)

omit [FloatOps F] in
/-- The result held whole is its thirty-two blocks held. -/
theorem oPts_blks (d : Dev nD) (f : Buf (Elt F) (oLoc d)) :
    (oLoc d ↦{fullShare} f : sProp 𝕄) = bigSep Finset.univ fun w : Fin 32 => oLoc d ↦[blkSet w]{fullShare} f := by
  rw [← pointsTo_biUnion Finset.univ (ℓ := oLoc d) blkSet blks_disjoint, blks_cover]; try rfl

/-- A SparseCore's sixteen task resources are its tasks' table shares, list shares and blocks. -/
theorem tasks_eq (d : Dev nD) (c : Fin 2) (f : Buf (Elt F) (oLoc d)) :
    (bigSep Finset.univ fun i : Fin 16 => taskRes m d c i f)
      = iprop((bigSep Finset.univ fun i : Fin 16 => xPts m d (tokT c.val i.val)) ∗ (bigSep Finset.univ fun i : Fin 16 => iPts m d (tokT c.val i.val))
          ∗ bigSep Finset.univ fun i : Fin 16 => oBlkPts d (wOf c i) f) := by
  unfold taskRes; rw [bigSep_sep', bigSep_sep']

theorem st0_eq (d : Dev nD) : (bigSep Finset.univ fun c : Fin ((K (F := F)).nCore 0) => (P m).st 0 d c)
    = iprop((bigSep Finset.univ fun i : Fin 16 => taskRes m d 0 i (m (oLoc d))) ∗ bigSep Finset.univ fun i : Fin 16 => taskRes m d 1 i (m (oLoc d))) :=
  bigSep_fin2 (fun c : Fin 2 => bigSep Finset.univ fun i : Fin 16 => taskRes m d c i (m (oLoc d)))
theorem dn0_eq (d : Dev nD) : (bigSep Finset.univ fun c : Fin ((K (F := F)).nCore 0) => (P m).dn 0 d c)
    = iprop((bigSep Finset.univ fun i : Fin 16 => taskRes m d 0 i (GO m d)) ∗ bigSep Finset.univ fun i : Fin 16 => taskRes m d 1 i (GO m d)) :=
  bigSep_fin2 (fun c : Fin 2 => bigSep Finset.univ fun i : Fin 16 => taskRes m d c i (GO m d))

/-- The three arrays held whole, the result at `f`, are the rests of the table's and the list's shares and the two
    SparseCores' task resources; and back. -/
theorem arrays_out (d : Dev nD) (f : Buf (Elt F) (oLoc d)) :
    iprop(xPts m d fullShare ∗ iPts m d fullShare ∗ oLoc d ↦{fullShare} f)
      ⊢ iprop((shRest (m (xLoc d)) ∗ shRest (m (iLoc d)))
          ∗ (bigSep Finset.univ fun i : Fin 16 => taskRes m d 0 i f) ∗ bigSep Finset.univ fun i : Fin 16 => taskRes m d 1 i f) := by
  rw [tasks_eq, tasks_eq, oPts_blks, bigSep_parity]
  iintro ⟨Hx, Hi, ⟨Ho0, Ho1⟩⟩
  ihave Hx' := (shares_out (m (xLoc d))) $$ Hx
  ihave Hi' := (shares_out (m (iLoc d))) $$ Hi
  icases Hx' with ⟨Hxr, Hx0, Hx1⟩
  icases Hi' with ⟨Hir, Hi0, Hi1⟩
  isplitl [Hxr Hir]
  · isplitl [Hxr]; · iexact Hxr
    iexact Hir
  isplitl [Hx0 Hi0 Ho0]
  · isplitl [Hx0]; · iexact Hx0
    isplitl [Hi0]; · iexact Hi0
    iexact Ho0
  · isplitl [Hx1]; · iexact Hx1
    isplitl [Hi1]; · iexact Hi1
    iexact Ho1

theorem arrays_in (d : Dev nD) (f : Buf (Elt F) (oLoc d)) :
    iprop((shRest (m (xLoc d)) ∗ shRest (m (iLoc d)))
          ∗ (bigSep Finset.univ fun i : Fin 16 => taskRes m d 0 i f) ∗ bigSep Finset.univ fun i : Fin 16 => taskRes m d 1 i f)
      ⊢ iprop(xPts m d fullShare ∗ iPts m d fullShare ∗ oLoc d ↦{fullShare} f) := by
  rw [tasks_eq, tasks_eq, oPts_blks, bigSep_parity]
  iintro ⟨⟨Hxr, Hir⟩, ⟨Hx0, Hi0, Ho0⟩, ⟨Hx1, Hi1, Ho1⟩⟩
  isplitl [Hxr Hx0 Hx1]
  · iapply (shares_in (m (xLoc d)))
    isplitl [Hxr]; · iexact Hxr
    isplitl [Hx0]; · iexact Hx0
    iexact Hx1
  isplitl [Hir Hi0 Hi1]
  · iapply (shares_in (m (iLoc d)))
    isplitl [Hir]; · iexact Hir
    isplitl [Hi0]; · iexact Hi0
    iexact Hi1
  isplitl [Ho0]; · iexact Ho0
  iexact Ho1

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (iLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What @main leaves the claim: the table and the list whole at their launch contents, the result whole at the
    lookup's value. -/
abbrev FIN (d : Dev nD) : sProp 𝕄 := iprop(xPts m d fullShare ∗ iPts m d fullShare ∗ oLoc d ↦{fullShare} GO m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, Harr, -, -⟩, -⟩
  ihave Hcut := (arrays_out m d (m (oLoc d))) $$ Harr
  icases Hcut with ⟨Hrest, Htasks⟩
  iapply ((K (F := F)).wp_run (D (F := F)) 𝒱 (EH := EH) (P := P m) κ d 0) $$ [Hst Htasks Hrest]
  isplitr; · iexact Hctx
  isplitl [Hst]; · iexact Hst
  isplitl [Htasks]
  · rw [st0_eq]; iexact Htasks
  iintro ⟨Hst, Hdn⟩
  ihave Hdn' := (Entails.of_eq (dn0_eq m d)) $$ Hdn
  ihave Harr := (arrays_in m d (GO m d)) $$ [Hrest Hdn']
  · isplitl [Hrest]; · iexact Hrest
    iexact Hdn'
  imodintro
  isplitl [Hst]; · iexact Hst
  iexact Harr

def fq (d : Dev nD) (s' : Phys nD τ sig (Elt F)) : Prop :=
  s'.mem.mem (oLoc d) = GO m d ∧ s'.mem.mem (xLoc d) = m (xLoc d) ∧ s'.mem.mem (iLoc d) = m (iLoc d)

theorem hfin (d : Dev nD) (s' : Phys nD τ sig (Elt F)) : iprop(FIN m d ∗ SI s') ⊢ (⌜fq m d s'⌝ : sProp 𝕄) := by
  iintro ⟨⟨Hx, Hi, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (SI_pointsTo_agree (st := s') (ℓ := oLoc d) (I := Finset.univ) (q := fullShare) (f := GO m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- The result is the lookup's value; the table and the list are unchanged. -/
def QC : PUnit × MemSt nD τ sig (Elt F) → Prop := fun r => ∀ c : Dev nD,
  r.2.mem (oLoc c) = GO m c ∧ r.2.mem (xLoc c) = m (xLoc c) ∧ r.2.mem (iLoc c) = m (iLoc c)

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.lean ====
/-
  The certificate's claim, assembled. The specification is a row lookup: row r of the result is the table's row named
  by the r-th word of the list (Spec). Under the precondition every word names a row (PreRange). Each of the kernel's
  two printed instances runs to the end with its result the lookup and its arguments unchanged (KLaunch at the
  bit-exact instance, KILaunch at the ideal one); the reference does the same (RefLookup, RefClaims). The three frame
  claims are those runs with the result dropped; the idealization rewrote nothing, so `preserves` is trivial; and at the
  ideal instance both results are the same lookup of the same table at the same list, which is `algebraic`.
-/
import proofs.«209209_g56281251446868_cont_9to1c4b_102_10_alg».proof.Defs
import proofs.«209209_g56281251446868_cont_9to1c4b_102_10_alg».proof.Proof.Gen.Kernel
import proofs.«209209_g56281251446868_cont_9to1c4b_102_10_alg».proof.Proof.Gen.Kernel.Skeleton
import proofs.«209209_g56281251446868_cont_9to1c4b_102_10_alg».proof.Proof.Gen.KernelIdeal
import proofs.«209209_g56281251446868_cont_9to1c4b_102_10_alg».proof.Proof.Gen.KernelIdeal.Skeleton
import proofs.«209209_g56281251446868_cont_9to1c4b_102_10_alg».proof.Proof.Gen.ReferenceIdeal
import proofs.«209209_g56281251446868_cont_9to1c4b_102_10_alg».proof.Proof.Gen.Pre_input_domain
import proofs.«209209_g56281251446868_cont_9to1c4b_102_10_alg».proof.Proof.PreRange
import proofs.«209209_g56281251446868_cont_9to1c4b_102_10_alg».proof.Proof.RefClaims
import proofs.«209209_g56281251446868_cont_9to1c4b_102_10_alg».proof.Proof.KLaunch
import proofs.«209209_g56281251446868_cont_9to1c4b_102_10_alg».proof.Proof.KILaunch
import Idealize.ShloMosaic.Adequacy
import Idealize.ShloMosaic.Init

noncomputable section

namespace Cert.Proof

open Idealize.ShloMosaic Idealize.SL.Sem Cert.Kernel

/-- The kernel as printed runs, its arguments unchanged: its run with the result dropped. -/
theorem frame_k [hK : Cert.Kernel.Facts] [hP : Cert.Pre_input_domain.Facts] :
    Cert.frame_Kernel (hKernel := hK) (hPre_input_domain := hP) :=
  fun m ρ hpre => (θ_run (Cert.Kernel.defs (F := Bits)) _ _).mono (fun _ h c => ⟨(h c).2.1, (h c).2.2⟩)
    (Cert.Proof.KB.run_main (F := Bits) m ρ (fun d => Cert.RefSide.inRange_of_pre (F := Bits) _ _ (hpre d)))

/-- The idealized kernel runs, its arguments unchanged. -/
theorem frame_ki [hKI : Cert.KernelIdeal.Facts] [hP : Cert.Pre_input_domain.Facts] :
    Cert.frame_KernelIdeal (hKernelIdeal := hKI) (hPre_input_domain := hP) :=
  fun m ρ hpre => (θ_run (Cert.KernelIdeal.defs (F := Ideal)) _ _).mono (fun _ h c => ⟨(h c).2.1, (h c).2.2⟩)
    (Cert.Proof.KI.run_main (F := Ideal) m ρ (fun d => Cert.RefSide.inRange_of_pre (F := Ideal) _ _ (hpre d)))

/-- At the ideal instance the kernel's result and the reference's are the same lookup. -/
theorem algebraic_ki_ri [hKI : Cert.KernelIdeal.Facts] [hR : Cert.ReferenceIdeal.Facts] [hP : Cert.Pre_input_domain.Facts] :
    Cert.algebraic_KernelIdeal_ReferenceIdeal (hKernelIdeal := hKI) (hReferenceIdeal := hR) (hPre_input_domain := hP) :=
  fun m g m' g' hpre hagree =>
    ⟨fun c => Cert.Proof.KI.GO (F := Ideal) m c,
      Cert.Proof.KI.run_main (F := Ideal) m g (fun d => Cert.RefSide.inRange_of_pre (F := Ideal) _ _ (hpre d)),
      Cert.RefSide.algebraic_ref m m' g' hpre hagree⟩

theorem claim : Cert.Claim := ⟨Cert.Kernel.Gen.facts, Cert.KernelIdeal.Gen.facts, Cert.ReferenceIdeal.Gen.facts, Cert.Pre_input_domain.Gen.facts,
  frame_k, frame_ki, Cert.RefSide.frame_ri, trivial, algebraic_ki_ri⟩

end Cert.Proof

end
